-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : IVec S2x200000 32) (main_arg3 : FVec F S256x128 .f32) (main_arg4 : FVec F S128 .f32) (main_arg5 : FVec F S128x128 .f32) (main_arg6 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S10000x128 : Shape := ⟨2, ![10000, 128]⟩
abbrev S10000x1 : Shape := ⟨2, ![10000, 1]⟩
abbrev S10000 : Shape := ⟨1, ![10000]⟩

abbrev nBuf : Space → Nat
  | .hbm => 87
  | .vmem => 21
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S2x200000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S1x200000, .i32⟩
  | .hbm, ⟨64, _⟩ => ⟨S200000, .i32⟩
  | .hbm, ⟨65, _⟩ => ⟨S1x200000, .i32⟩
  | .hbm, ⟨66, _⟩ => ⟨S200000, .i32⟩
  | .hbm, ⟨67, _⟩ => ⟨S_, .i32⟩
  | .hbm, ⟨68, _⟩ => ⟨S200000, .i32⟩
  | .hbm, ⟨69, _⟩ => ⟨S200000, .i1⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S200000x1, .i32⟩
  | .hbm, ⟨75, _⟩ => ⟨S200000x128, .f32⟩
  | .hbm, ⟨76, _⟩ => ⟨S_, .i32⟩
  | .hbm, ⟨77, _⟩ => ⟨S200000, .i32⟩
  | .hbm, ⟨78, _⟩ => ⟨S200000, .i1⟩
  | .hbm, ⟨79, _⟩ => ⟨S_, .i32⟩
  | .hbm, ⟨80, _⟩ => ⟨S200000, .i32⟩
  | .hbm, ⟨81, _⟩ => ⟨S200000, .i32⟩
  | .hbm, ⟨82, _⟩ => ⟨S200000, .i32⟩
  | .hbm, ⟨83, _⟩ => ⟨S200000x1, .i32⟩
  | .hbm, ⟨84, _⟩ => ⟨S200000x128, .f32⟩
  | .hbm, ⟨85, _⟩ => ⟨S200000x1, .f32⟩
  | .hbm, ⟨86, _⟩ => ⟨S200000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x1, .f32⟩
  | .local _ .vmem, ⟨20, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S1700000x1_S1700000_n_0_0_1_wf : ScatterDims.WF S100000 S1700000x1 S1700000 [] [0] [0] 1
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  gather_S100000x128_S200000x1_S200000x128_1_0_n_n_0_1_1128_wf : GatherDims.WF S100000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S200000x128.size a
  hwx2_0 : ∀ i : grid2.Coords, EltTy.bits .f32 = 32 ∨ (Rect.block (s := S200000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S200000x128.size a
  hwx2_1 : ∀ i : grid2.Coords, EltTy.bits .f32 = 32 ∨ (Rect.block (s := S200000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 134
  | .vmem => 0
  | .smem => 0
  | _ => 0

abbrev hbmTy0_0 (i : Nat) : BufTy := match i % 128 with
  | 0 => ⟨S100000x256, .f32⟩
  | 1 => ⟨S2x1600000, .i32⟩
  | 2 => ⟨S2x200000, .i32⟩
  | 3 => ⟨S256x128, .f32⟩
  | 4 => ⟨S128, .f32⟩
  | 5 => ⟨S128x128, .f32⟩
  | 6 => ⟨S128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S100000x128, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S1700000, .f32⟩
  | 90 => ⟨S1700000x1, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x128, .f32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S1x128, .f32⟩
  | 107 => ⟨S100000x128, .f32⟩
  | 108 => ⟨S100000x128, .f32⟩
  | 109 => ⟨S1x200000, .i32⟩
  | 110 => ⟨S200000, .i32⟩
  | 111 => ⟨S1x200000, .i32⟩
  | 112 => ⟨S200000, .i32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x128, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S100000x256, .f32⟩

abbrev hbmTy0_1 (i : Nat) : BufTy := match i % 128 with
  | 0 => ⟨S200000, .i32⟩
  | 1 => ⟨S200000x1, .i32⟩
  | 2 => ⟨S200000x128, .f32⟩
  | 3 => ⟨S200000x128, .f32⟩
  | 4 => ⟨S_, .f32⟩
  | 5 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_16 : Ref sig .tc := ⟨.hbm, 113, rfl⟩
abbrev main_v84 : Ref sig .tc := ⟨.hbm, 114, rfl⟩
abbrev main_v85 : Ref sig .tc := ⟨.hbm, 115, rfl⟩
abbrev main_c_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_18 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  scatter_S100000_S1700000x1_S1700000_n_0_0_1_wf : ScatterDims.WF S100000 S1700000x1 S1700000 [] [0] [0] 1
  dot_S100000x256_S256x128_S100000x128_1_0_0_1_n_n_wf : DotDims.WF S100000x256 S256x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

class Facts : Prop extends Facts₀ where

variable [Facts]
-- ==== Proof.KernelRun.lean ====
/-
  The whole program's run with its result named. Every weakly fair execution of the program on the TensorCores, from any
  memory with zero counters, terminates without fault, and in every final state
    * the result buffer (the 200000 scores) holds what the last stretch of host operations leaves there, starting from
      the contents the decoder left — `Gen.W9 m ρ c` at that buffer: the chain of host stretches and regions from the
      launch memory to the return, each stage a function of the one before;
    * each of the seven argument arrays holds what it held at the launch.
  The post reads every buffer that outlives the run off the last thread state; the result's conjunct is that reading
  itself, the arguments' conjuncts are the reading followed by "nothing wrote this argument".
-/
import proofs.«122417_j88742614270706_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run: the result buffer ends at the last stage of the chain, the seven arguments end as launched. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.Gcn.KernelRun

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.LibEdgeScale.lean ====
/-
  Scaling a sum of messages once, or every message by itself: on the extended reals, for finite entries,

      D · (0 + ∑_{j ∈ S} h j · s j) + b  =  (0 + ∑_{j ∈ S} (s j · d j) · h j) + b        when d j = D for every j ∈ S.

  Distributivity fails at the infinities, so the entries are first written as coercions of real numbers, the identity
  is the reals' `Finset.mul_sum` and commutativity, and the coercion is pushed back through products and the finite sum.
  Also here: the finite extended reals are closed under the operations the two programs use.
-/
import proofs.«122417_j88742614270706_2_alg».proof.Proof.LibRankFactor

namespace EdgeScale

/-- An extended real that is neither infinity. -/
def Finite (x : EReal) : Prop := x ≠ ⊤ ∧ x ≠ ⊥

theorem finite_coe (r : ℝ) : Finite (r : EReal) := ⟨EReal.coe_ne_top r, EReal.coe_ne_bot r⟩

theorem finite_zero : Finite (0 : EReal) := by simpa using finite_coe 0

theorem finite_one : Finite (1 : EReal) := by simpa using finite_coe 1

/-- A finite extended real is the coercion of a real. -/
theorem Finite.exists_coe {x : EReal} (h : Finite x) : ∃ r : ℝ, x = (r : EReal) :=
  ⟨x.toReal, (EReal.coe_toReal h.1 h.2).symm⟩

theorem Finite.mul {x y : EReal} (hx : Finite x) (hy : Finite y) : Finite (x * y) := by
  obtain ⟨a, rfl⟩ := hx.exists_coe
  obtain ⟨b, rfl⟩ := hy.exists_coe
  rw [← EReal.coe_mul]; exact finite_coe _

theorem Finite.add {x y : EReal} (hx : Finite x) (hy : Finite y) : Finite (x + y) := by
  obtain ⟨a, rfl⟩ := hx.exists_coe
  obtain ⟨b, rfl⟩ := hy.exists_coe
  rw [← EReal.coe_add]; exact finite_coe _

theorem Finite.max {x y : EReal} (hx : Finite x) (hy : Finite y) : Finite (max x y) := by
  rcases max_choice x y with h | h <;> rw [h] <;> assumption

theorem Finite.sum {ι : Type*} (S : Finset ι) (f : ι → EReal) (h : ∀ j ∈ S, Finite (f j)) : Finite (∑ j ∈ S, f j) := by
  classical
  induction S using Finset.induction_on with
  | empty => simpa using finite_zero
  | insert a s ha ih =>
    rw [Finset.sum_insert ha]
    exact (h a (Finset.mem_insert_self a s)).add (ih fun j hj => h j (Finset.mem_insert_of_mem hj))

/-- THE LAW: a common finite factor `D` of every message's weight comes out of the sum. -/
theorem scale_sum {ι : Type*} (S : Finset ι) (D b : EReal) (h s d : ι → EReal)
    (hD : Finite D) (hh : ∀ j, Finite (h j)) (hs : ∀ j, Finite (s j)) (hd : ∀ j ∈ S, d j = D) :
    D * (0 + ∑ j ∈ S, h j * s j) + b = (0 + ∑ j ∈ S, (s j * d j) * h j) + b := by
  obtain ⟨D', rfl⟩ := hD.exists_coe
  obtain ⟨h', hh'⟩ := RankFactor.exists_real h hh
  obtain ⟨s', hs'⟩ := RankFactor.exists_real s hs
  have e1 : ∑ j ∈ S, h j * s j = ((∑ j ∈ S, h' j * s' j : ℝ) : EReal) := by
    rw [RankFactor.coe_sum]
    exact Finset.sum_congr rfl fun j _ => by rw [hh' j, hs' j, EReal.coe_mul]
  have e2 : ∑ j ∈ S, (s j * d j) * h j = ((∑ j ∈ S, (s' j * D') * h' j : ℝ) : EReal) := by
    rw [RankFactor.coe_sum]
    exact Finset.sum_congr rfl fun j hj => by rw [hd j hj, hh' j, hs' j, EReal.coe_mul, EReal.coe_mul]
  rw [zero_add, zero_add, e1, e2, ← EReal.coe_mul]
  congr 2
  rw [Finset.mul_sum]
  exact Finset.sum_congr rfl fun j _ => by ring

end EdgeScale
-- ==== Proof.FiniteArgs.lean ====
/-
  From the precondition to "every entry of every float argument is a real number".

  The precondition computes, for each of the five float arguments (the node features, the two weight matrices and the
  two bias rows), whether `|a| < +∞` holds at every entry, and takes the conjunction of the five answers; the claim
  supposes that the result is 1. A conjunction that is 1 has both parts 1; an "all" over an array that is 1 had a 1 at
  every entry; a comparison `|a| < +∞` that answers 1 holds; and an extended real whose absolute value `max a (−a)`
  is below `+∞` is neither `+∞` nor `−∞`. The word `0x7F800000` read as a single-precision pattern (sign 0, exponent
  all ones, fraction 0) is `+∞`. The two integer arguments (the edge lists) play no part.
-/
import proofs.«122417_j88742614270706_2_alg».proof.Proof.Gen.Pre_finite_inputs
import proofs.«122417_j88742614270706_2_alg».proof.Proof.LibEdgeScale
import Idealize.ShloMosaic.Lib.ReduceAll
import Idealize.ShloMosaic.Lib.ValueIdx
import Idealize.ShloMosaic.PureOps.Ideal

noncomputable section

namespace Cert.Gcn.FiniteArgs

open Idealize.ShloMosaic Idealize.ShloMosaic.ValueIdx
open Cert.Pre_finite_inputs

/-- The scalar shape has one index. -/
instance : Subsingleton S_.Idx := ⟨fun a b => funext fun d => d.elim0⟩

/-- The pattern `0x7F800000` denotes `+∞`. -/
theorem inf_word : Ideal.ofBits .f32 0x7F800000#32 = (⊤ : EReal) := by
  simp [Ideal.ofBits, Ideal.ieee]

/-- A truth value that prints as the one-bit word 1 is true. -/
theorem one_of_ofBool {b : Bool} (h : BitVec.ofBool b = 1#1) : b = true := by
  cases b
  · exact absurd h (by decide)
  · rfl

/-- One argument, of any shape: if "every entry has `|a| < +∞`" came out 1, then every entry is finite. The "all" gives
    the comparison's answer 1 at entry `i`; the comparison there is `max (a i) (−a i) < +∞`. -/
theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1)
    (i : s.Idx) : EdgeScale.Finite (a i) := by
  have h1 := Host.reduce_andi_all _ _ hr hu ix0 e i
  have h2 : BitVec.ofBool (decide (max (a i) (-(a i)) < Ideal.ofBits .f32 0x7F800000#32)) = 1#1 := h1
  rw [inf_word] at h2
  exact RankFactor.finite_of_abs_lt_top (of_decide_eq_true (one_of_ofBool h2))

/-- The precondition at its one index is a conjunction of five "all"s, nested to the left in the order of the
    arguments 0, 3, 4, 5, 6; each part gives its argument's finiteness by `finite_of_all`. -/
theorem of_pre [Cert.Pre_finite_inputs.Facts] (a0 : FVec Ideal ⟨2, ![100000, 256]⟩ .f32) (a1 : IVec ⟨2, ![2, 1600000]⟩ 32)
    (a2 : IVec ⟨2, ![2, 200000]⟩ 32) (a3 : FVec Ideal ⟨2, ![256, 128]⟩ .f32) (a4 : FVec Ideal ⟨1, ![128]⟩ .f32)
    (a5 : FVec Ideal ⟨2, ![128, 128]⟩ .f32) (a6 : FVec Ideal ⟨1, ![128]⟩ .f32)
    (h : Cert.Pre_finite_inputs.fn (F := Ideal) a0 a1 a2 a3 a4 a5 a6 = fun _ => 1#1) :
    (∀ i, EdgeScale.Finite (a0 i)) ∧ (∀ i, EdgeScale.Finite (a3 i)) ∧ (∀ i, EdgeScale.Finite (a4 i))
      ∧ (∀ i, EdgeScale.Finite (a5 i)) ∧ (∀ i, EdgeScale.Finite (a6 i)) := by
  have h0 := congrFun h ix0
  dsimp only [Cert.Pre_finite_inputs.fn, Cert.Pre_finite_inputs.fn_part1] at h0
  obtain ⟨h1234, e6⟩ := IntOp.andi_eq_one.1 h0
  obtain ⟨h123, e5⟩ := IntOp.andi_eq_one.1 h1234
  obtain ⟨h12, e4⟩ := IntOp.andi_eq_one.1 h123
  obtain ⟨e0, e3⟩ := IntOp.andi_eq_one.1 h12
  exact ⟨finite_of_all a0 _ _ _ e0, finite_of_all a3 _ _ _ e3, finite_of_all a4 _ _ _ e4,
    finite_of_all a5 _ _ _ e5, finite_of_all a6 _ _ _ e6⟩

end Cert.Gcn.FiniteArgs

end
-- ==== Proof.Spec.lean ====
/-
  The three dense pieces of a two-layer graph convolution with a dot-product decoder, each as ONE function of whole
  arrays over the extended reals, index by index. N = 100000 nodes, 256 input features, 128 hidden features,
  200000 candidate pairs.

  * `layer1 x w d`  : row `i` of `x · w`, scaled by the node's factor `d i` (its inverse square-root degree).
  * `layer2 a b d w`: the node's aggregate `a i` scaled by `d i`, plus the bias row `b`, clipped below at zero, then
                       that row times `w`, scaled again by `d i`.
  * `decode u v`    : the dot product of row `p` of `u` with row `p` of `v`.
-/
import Idealize.ShloMosaic.PureOps.Ideal
import Idealize.ShloMosaic.Lib.ValueIdx

noncomputable section

namespace Cert.Gcn

open Idealize.ShloMosaic Idealize.ShloMosaic.ValueIdx

/-- Row `i` of the product `x · w` (a sum over the 256 input features), times the node's factor `d i`. -/
def layer1 (x : FVec Ideal ⟨2, ![100000, 256]⟩ .f32) (w : FVec Ideal ⟨2, ![256, 128]⟩ .f32)
    (d : FVec Ideal ⟨2, ![100000, 1]⟩ .f32) : FVec Ideal ⟨2, ![100000, 128]⟩ .f32 :=
  fun i => (∑ k : Fin 256, x (ix2 (i 0) k) * w (ix2 k (i 1))) * d (ix2 (i 0) 0)

/-- The hidden row of node `i`: `max (d i · a i k + b k) 0` over the 128 hidden features `k`; then its product with
    `w`, times the node's factor `d i`. -/
def layer2 (a : FVec Ideal ⟨2, ![100000, 128]⟩ .f32) (b : FVec Ideal ⟨2, ![1, 128]⟩ .f32)
    (d : FVec Ideal ⟨2, ![100000, 1]⟩ .f32) (w : FVec Ideal ⟨2, ![128, 128]⟩ .f32) : FVec Ideal ⟨2, ![100000, 128]⟩ .f32 :=
  fun i => (∑ k : Fin 128, max (d (ix2 (i 0) 0) * a (ix2 (i 0) k) + b (ix2 0 k)) 0 * w (ix2 k (i 1))) * d (ix2 (i 0) 0)

/-- The score of pair `p`: the dot product of the two gathered embedding rows. -/
def decode (u v : FVec Ideal ⟨2, ![200000, 128]⟩ .f32) : FVec Ideal ⟨2, ![200000, 1]⟩ .f32 :=
  fun p => ∑ k : Fin 128, u (ix2 (p 0) k) * v (ix2 (p 0) k)

end Cert.Gcn

end
-- ==== Proof.Terms.lean ====
/-
  The two programs' results as terms of the argument arrays, at the extended reals.

  Both programs build the same edge lists from `edge_index` (`src`, `dst`: the given edges followed by one self-loop per
  node), the same in-degree `deg` (a scatter-add of ones along `dst`), and the same node factor
  `dis = if deg > 0 then deg^(-1/2) else 0`. A gather normalises a start index (a negative one gets N added) and the
  gather itself clamps it into the table; a scatter-add reads its index signed and drops an update that lands outside.

  The kernel program scales BEFORE and AFTER aggregating: `aggregate h = scatter-add along dst of the rows h[src]`, layer
  one is `(x·W1)·dis`, layer two is `(relu (dis·agg0 + b1)·W2)·dis`, the embedding is `z = dis·agg1 + b2`.
  The reference scales each MESSAGE: `conv h b = scatter-add along dst of (dis[src]·dis[dst])·h[src], plus b`, with
  `h = x·W1`, then `relu`, then `conv (relu·W2) b2`.
  Both end with the dot product of the embedding rows of each candidate pair.
-/
import proofs.«122417_j88742614270706_2_alg».proof.KernelIdeal
import proofs.«122417_j88742614270706_2_alg».proof.Proof.Spec
import Idealize.ShloMosaic.PureOps.Ideal

noncomputable section

namespace Cert.Gcn

open Idealize.ShloMosaic Cert.KernelIdeal Cert.KernelIdeal.Facts₀ Cert.KernelIdeal.Facts

variable [Cert.KernelIdeal.Facts]

/-- Row `r` of `edge_index` followed by the node numbers `0 … N−1` (the self-loops). -/
def edgeRow0 (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩,
    ⟨S100000, iotaInDim S100000 32 0⟩] concatenates_S1600000_S100000_S1700000_d0
def edgeRow1 (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩,
    ⟨S100000, iotaInDim S100000 32 0⟩] concatenates_S1600000_S100000_S1700000_d0

/-- An edge list as a column of scatter indices. -/
def col (i : IVec S1700000 32) : IVec S1700000x1 32 := broadcastInDim S1700000x1 ![0] bcast_S1700000_S1700000x1_0 i

/-- An edge list as a column of gather start indices: a negative entry gets N = 100000 added first. -/
def wrapCol (i : IVec S1700000 32) : IVec S1700000x1 32 :=
  col (select (cmpi .slt i (broadcastInDim S1700000 ![] bcast_S_S1700000 (constantI S_ 32 0#32)))
    (addi i (broadcastInDim S1700000 ![] bcast_S_S1700000 (constantI S_ 32 100000#32))) i)

/-- The in-degree of every node, self-loop included: ones added up along `dst`. -/
def deg (a1 : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (col (edgeRow1 a1))
    (broadcastInDim S1700000 ![] bcast_S_S1700000 (constant (F := Ideal) S_ .f32 0x3F800000#32))

/-- The node factor: `deg^(-1/2)` where the degree is positive, else 0. -/
def dis (a1 : IVec S2x1600000 32) : FVec Ideal S100000 .f32 :=
  select (cmpf .ogt (deg a1) (broadcastInDim S100000 ![] bcast_S_S100000 (constant (F := Ideal) S_ .f32 0x00000000#32)))
    (Host.rsqrt (deg a1))
    (broadcastInDim S100000 ![] bcast_S_S100000 (constant (F := Ideal) S_ .f32 0x00000000#32))

/-- The node factor as a column. -/
def disCol (a1 : IVec S2x1600000 32) : FVec Ideal S100000x1 .f32 :=
  broadcastInDim S100000x1 ![0] bcast_S100000_S100000x1_0 (dis a1)

/-- A zero table to accumulate into. -/
def zeros : FVec Ideal S100000x128 .f32 := broadcastInDim S100000x128 ![] bcast_S_S100000x128 (constant (F := Ideal) S_ .f32 0x00000000#32)

/-- The rows of `h` at the edges' sources. -/
def rowsAtSrc (a1 : IVec S2x1600000 32) (h : FVec Ideal S100000x128 .f32) : FVec Ideal S1700000x128 .f32 :=
  Host.gather gather_S100000x128_S1700000x1_S1700000x128_1_0_n_n_0_1_1128 h (wrapCol (edgeRow0 a1))

/-- Messages added up at their destinations. -/
def sumAtDst (a1 : IVec S2x1600000 32) (msgs : FVec Ideal S1700000x128 .f32) : FVec Ideal S100000x128 .f32 :=
  Host.scatterAdd scatter_S100000x128_S1700000x1_S1700000x128_1_0_0_1 zeros (col (edgeRow1 a1)) msgs

/-- A bias row spread over all nodes. -/
def biasRows (b : FVec Ideal S128 .f32) : FVec Ideal S100000x128 .f32 :=
  broadcastInDim S100000x128 ![0, 1] bcast_S1x128_S100000x128_0_1 (broadcastInDim S1x128 ![1] bcast_S128_S1x128_1 b)

/-! ## The kernel program -/

def kAgg0 (a0 : FVec Ideal S100000x256 .f32) (a1 : IVec S2x1600000 32) (a3 : FVec Ideal S256x128 .f32) : FVec Ideal S100000x128 .f32 :=
  sumAtDst a1 (rowsAtSrc a1 (layer1 a0 a3 (disCol a1)))

def kAgg1 (a0 : FVec Ideal S100000x256 .f32) (a1 : IVec S2x1600000 32) (a3 : FVec Ideal S256x128 .f32) (a4 : FVec Ideal S128 .f32)
    (a5 : FVec Ideal S128x128 .f32) : FVec Ideal S100000x128 .f32 :=
  sumAtDst a1 (rowsAtSrc a1 (layer2 (kAgg0 a0 a1 a3) (shapeCast S1x128 a4 shapeCasts_S128_S1x128) (disCol a1) a5))

/-- The kernel program's node embeddings. -/
def kZ (a0 : FVec Ideal S100000x256 .f32) (a1 : IVec S2x1600000 32) (a3 : FVec Ideal S256x128 .f32) (a4 : FVec Ideal S128 .f32)
    (a5 : FVec Ideal S128x128 .f32) (a6 : FVec Ideal S128 .f32) : FVec Ideal S100000x128 .f32 :=
  addf (mulf (broadcastInDim S100000x128 ![0, 1] bcast_S100000x1_S100000x128_0_1 (disCol a1)) (kAgg1 a0 a1 a3 a4 a5)) (biasRows a6)

/-- Row `r` of `edge_pairs` as a column of gather start indices (a negative entry gets N added first). -/
def pairCol0 (a2 : IVec S2x200000 32) : IVec S200000x1 32 :=
  broadcastInDim S200000x1 ![0] bcast_S200000_S200000x1_0
    (select (cmpi .slt (shapeCast S200000 (extractStridedSlice S1x200000 ![0, 0] a2 slices_S2x200000_S1x200000_0_0) shapeCasts_S1x200000_S200000)
        (broadcastInDim S200000 ![] bcast_S_S200000 (constantI S_ 32 0#32)))
      (addi (shapeCast S200000 (extractStridedSlice S1x200000 ![0, 0] a2 slices_S2x200000_S1x200000_0_0) shapeCasts_S1x200000_S200000)
        (broadcastInDim S200000 ![] bcast_S_S200000 (constantI S_ 32 100000#32)))
      (shapeCast S200000 (extractStridedSlice S1x200000 ![0, 0] a2 slices_S2x200000_S1x200000_0_0) shapeCasts_S1x200000_S200000))
def pairCol1 (a2 : IVec S2x200000 32) : IVec S200000x1 32 :=
  broadcastInDim S200000x1 ![0] bcast_S200000_S200000x1_0
    (select (cmpi .slt (shapeCast S200000 (extractStridedSlice S1x200000 ![1, 0] a2 slices_S2x200000_S1x200000_1_0) shapeCasts_S1x200000_S200000)
        (broadcastInDim S200000 ![] bcast_S_S200000 (constantI S_ 32 0#32)))
      (addi (shapeCast S200000 (extractStridedSlice S1x200000 ![1, 0] a2 slices_S2x200000_S1x200000_1_0) shapeCasts_S1x200000_S200000)
        (broadcastInDim S200000 ![] bcast_S_S200000 (constantI S_ 32 100000#32)))
      (shapeCast S200000 (extractStridedSlice S1x200000 ![1, 0] a2 slices_S2x200000_S1x200000_1_0) shapeCasts_S1x200000_S200000))

/-- The embedding rows of one end of every candidate pair. -/
def rowsAtPair (z : FVec Ideal S100000x128 .f32) (p : IVec S200000x1 32) : FVec Ideal S200000x128 .f32 :=
  Host.gather gather_S100000x128_S200000x1_S200000x128_1_0_n_n_0_1_1128 z p

/-- THE KERNEL PROGRAM'S RESULT. -/
def kernelOut (a0 : FVec Ideal S100000x256 .f32) (a1 : IVec S2x1600000 32) (a2 : IVec S2x200000 32) (a3 : FVec Ideal S256x128 .f32)
    (a4 : FVec Ideal S128 .f32) (a5 : FVec Ideal S128x128 .f32) (a6 : FVec Ideal S128 .f32) : FVec Ideal S200000 .f32 :=
  shapeCast S200000 (decode (rowsAtPair (kZ a0 a1 a3 a4 a5 a6) (pairCol0 a2)) (rowsAtPair (kZ a0 a1 a3 a4 a5 a6) (pairCol1 a2)))
    shapeCasts_S200000x1_S200000

end Cert.Gcn

end
-- ==== Proof.RefTerms.lean ====
/-
  The reference's result as a term of the argument arrays, at the extended reals, over the stages it shares with the
  kernel program (the edge lists, the degree, the node factor, gathering rows at the sources, adding up at the
  destinations, spreading a bias row).

  One convolution of the reference weighs each MESSAGE by `dis[src]·dis[dst]`:
  `conv h b = (scatter-add along dst of (dis[src]·dis[dst])·h[src]) + b`, with `h = x·W1` for the first layer, a clip
  below at zero between the layers, and `h = hidden·W2` for the second. The score of a pair is the sum over the 128
  features of the product of its two embedding rows, added to the initial value 0.
-/
import proofs.«122417_j88742614270706_2_alg».proof.ReferenceIdeal
import proofs.«122417_j88742614270706_2_alg».proof.Proof.Terms

noncomputable section

namespace Cert.Gcn

open Idealize.ShloMosaic Cert.KernelIdeal Cert.KernelIdeal.Facts₀ Cert.KernelIdeal.Facts

variable [Cert.KernelIdeal.Facts] [Cert.ReferenceIdeal.Facts]

/-- The weight of every edge: the factor of its source times the factor of its destination. -/
def edgeNorm (a1 : IVec S2x1600000 32) : FVec Ideal S1700000 .f32 :=
  mulf (Host.gather Cert.ReferenceIdeal.gather_S100000_S1700000x1_S1700000_n_0_n_n_0_1_1 (dis a1) (wrapCol (edgeRow0 a1)))
    (Host.gather Cert.ReferenceIdeal.gather_S100000_S1700000x1_S1700000_n_0_n_n_0_1_1 (dis a1) (wrapCol (edgeRow1 a1)))

/-- The edge weights spread over the 128 features. -/
def edgeNormRows (a1 : IVec S2x1600000 32) : FVec Ideal S1700000x128 .f32 :=
  broadcastInDim S1700000x128 ![0, 1] Cert.ReferenceIdeal.Facts₀.bcast_S1700000x1_S1700000x128_0_1
    (broadcastInDim S1700000x1 ![0] bcast_S1700000_S1700000x1_0 (edgeNorm a1))

/-- One convolution of the reference: weighted messages added up at their destinations, plus the bias. -/
def rConv (a1 : IVec S2x1600000 32) (h : FVec Ideal S100000x128 .f32) (b : FVec Ideal S128 .f32) : FVec Ideal S100000x128 .f32 :=
  addf (sumAtDst a1 (mulf (edgeNormRows a1) (rowsAtSrc a1 h))) (biasRows b)

/-- The hidden layer: the first convolution of `x·W1`, clipped below at zero. -/
def rHidden (a0 : FVec Ideal S100000x256 .f32) (a1 : IVec S2x1600000 32) (a3 : FVec Ideal S256x128 .f32) (a4 : FVec Ideal S128 .f32) :
    FVec Ideal S100000x128 .f32 :=
  maximumf (rConv a1 (Host.dotGeneral Cert.ReferenceIdeal.dot_S100000x256_S256x128_S100000x128_1_0_0_1_n_n none a0 a3) a4) zeros

/-- The reference's node embeddings. -/
def rZ (a0 : FVec Ideal S100000x256 .f32) (a1 : IVec S2x1600000 32) (a3 : FVec Ideal S256x128 .f32) (a4 : FVec Ideal S128 .f32)
    (a5 : FVec Ideal S128x128 .f32) (a6 : FVec Ideal S128 .f32) : FVec Ideal S100000x128 .f32 :=
  rConv a1 (Host.dotGeneral Cert.ReferenceIdeal.dot_S100000x128_S128x128_S100000x128_1_0_0_1_n_n none (rHidden a0 a1 a3 a4) a5) a6

/-- THE REFERENCE'S RESULT. -/
def refOut (a0 : FVec Ideal S100000x256 .f32) (a1 : IVec S2x1600000 32) (a2 : IVec S2x200000 32) (a3 : FVec Ideal S256x128 .f32)
    (a4 : FVec Ideal S128 .f32) (a5 : FVec Ideal S128x128 .f32) (a6 : FVec Ideal S128 .f32) : FVec Ideal S200000 .f32 :=
  Host.reduceAdd (mulf (rowsAtPair (rZ a0 a1 a3 a4 a5 a6) (pairCol0 a2)) (rowsAtPair (rZ a0 a1 a3 a4 a5 a6) (pairCol1 a2)))
    (constant (F := Ideal) S_ .f32 0x00000000#32) Cert.ReferenceIdeal.Facts₀.reducesTo_S200000x128_S200000_d1 Cert.ReferenceIdeal.Facts₀.h_S_

end Cert.Gcn

end
-- ==== Proof.Assembly.lean ====
/-
  The five conjuncts of the claim, put together from the parts.

  * The two frames of the kernel program (at words and at the extended reals) are the generated frame runs.
  * The reference's frame is the reference's run with the result forgotten.
  * Nothing was rewritten between the word-level program and its idealization, so that conjunct is `True`.
  * The algebraic conjunct. Both programs run; the kernel program's result buffer ends at the last stage of its chain of
    host stretches and regions, which is `kernelOut` of the seven arguments (`KernelValue`); the reference's ends at
    `refOut` of ITS seven arguments (`RefRun`), which are the kernel program's by the agreement hypothesis; and on
    arguments whose float entries are all real numbers the two functions are equal (`Bridge`) — the precondition says
    exactly that of the five float arguments. So both result buffers hold `kernelOut` of the kernel program's arguments.

  The three facts named above are proved in other modules; here they are hypotheses, stated once as propositions.
-/
import proofs.«122417_j88742614270706_2_alg».proof.Defs
import proofs.«122417_j88742614270706_2_alg».proof.Proof.Gen.Kernel.Frame
import proofs.«122417_j88742614270706_2_alg».proof.Proof.Gen.KernelIdeal.Frame
import proofs.«122417_j88742614270706_2_alg».proof.Proof.Gen.ReferenceIdeal
import proofs.«122417_j88742614270706_2_alg».proof.Proof.Gen.Pre_finite_inputs
import proofs.«122417_j88742614270706_2_alg».proof.Proof.KernelRun
import proofs.«122417_j88742614270706_2_alg».proof.Proof.FiniteArgs
import proofs.«122417_j88742614270706_2_alg».proof.Proof.Terms
import proofs.«122417_j88742614270706_2_alg».proof.Proof.RefTerms

noncomputable section

namespace Cert.Gcn.Assembly

open Idealize.ShloMosaic Idealize.SL.Sem

/-- The kernel program's result buffer, at the end of its chain of stages from the launch memory `m`, is `kernelOut` of
    the seven argument arrays of `m`. -/
abbrev KernelValue : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    Cert.KernelIdeal.Gen.W9 m ρ c (Proc.devRef .tc Cert.KernelIdeal.main_v63)
      = Cert.Gcn.kernelOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))

/-- The reference runs; its result buffer ends at `refOut` of its seven argument arrays, which end as launched. -/
abbrev RefRun : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v99)
        = Cert.Gcn.refOut
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)

/-- On arguments whose float entries are all real numbers the two programs compute the same function. -/
abbrev Bridge : Prop :=
  ∀ (a0 : FVec Ideal Cert.KernelIdeal.S100000x256 .f32) (a1 : IVec Cert.KernelIdeal.S2x1600000 32) (a2 : IVec Cert.KernelIdeal.S2x200000 32)
    (a3 : FVec Ideal Cert.KernelIdeal.S256x128 .f32) (a4 : FVec Ideal Cert.KernelIdeal.S128 .f32) (a5 : FVec Ideal Cert.KernelIdeal.S128x128 .f32)
    (a6 : FVec Ideal Cert.KernelIdeal.S128 .f32),
    (∀ i, EdgeScale.Finite (a0 i)) → (∀ i, EdgeScale.Finite (a3 i)) → (∀ i, EdgeScale.Finite (a4 i)) →
    (∀ i, EdgeScale.Finite (a5 i)) → (∀ i, EdgeScale.Finite (a6 i)) →
    Cert.Gcn.kernelOut a0 a1 a2 a3 a4 a5 a6 = Cert.Gcn.refOut a0 a1 a2 a3 a4 a5 a6

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run, the result's conjunct dropped. -/
theorem frame_ri (hR : RefRun) : Cert.frame_ReferenceIdeal := fun m' ρ' _ =>
  (θ_run Cert.ReferenceIdeal.defs _ _).mono (fun _ h c => (h c).2) (hR m' ρ')

/-- Both programs run from memories that agree on the arguments, and both result buffers end at `kernelOut` of the
    kernel program's arguments: the kernel program's by `KernelValue`; the reference's at `refOut` of its own arguments,
    which are the kernel program's (agreement), and `refOut` is `kernelOut` there because the precondition makes every
    float entry finite (`Bridge`). -/
theorem algebraic (hV : KernelValue) (hR : RefRun) (hB : Bridge) : Cert.algebraic_KernelIdeal_ReferenceIdeal := by
  intro m ρ m' ρ' hpre hagree
  refine ⟨fun c => Cert.Gcn.kernelOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)), ?_, ?_⟩
  · exact (θ_run Cert.KernelIdeal.defs _ _).mono (fun _ h c => ⟨(h c).1.trans (hV m ρ c), (h c).2⟩)
      (Cert.Gcn.KernelRun.run (F := Ideal) m ρ)
  · refine (θ_run Cert.ReferenceIdeal.defs _ _).mono (fun _ h c => ⟨(h c).1.trans ?_, (h c).2⟩) (hR m' ρ')
    obtain ⟨e0, e1, e2, e3, e4, e5, e6⟩ := hagree c
    obtain ⟨f0, f3, f4, f5, f6⟩ := Cert.Gcn.FiniteArgs.of_pre _ _ _ _ _ _ _ (hpre c)
    rw [e0, e1, e2, e3, e4, e5, e6]
    exact (hB _ _ _ _ _ _ _ f0 f3 f4 f5 f6).symm

/-- The claim: the facts' witnesses are the generated instances; the five conjuncts in order. -/
theorem claim (hV : KernelValue) (hR : RefRun) (hB : Bridge) : Cert.Claim :=
  ⟨Cert.Kernel.Gen.facts, Cert.KernelIdeal.Gen.facts, Cert.ReferenceIdeal.Gen.facts, Cert.Pre_finite_inputs.Gen.facts,
    frame_k, frame_ki, frame_ri hR, trivial, algebraic hV hR hB⟩

end Cert.Gcn.Assembly

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.KernelValueA.lean ====
/-
  The host stretches of the kernel program, one by one: which buffers a stretch writes, and what it leaves in the
  buffers the later segments read, as a term of the contents `X` it starts from. The terms are those of
  `Cert.Gcn` (the edge lists, the degree, the node factor, gather-then-scatter aggregation, the embeddings).
-/
import proofs.«122417_j88742614270706_2_alg».proof.Proof.Gen.KernelIdeal.Frame
import proofs.«122417_j88742614270706_2_alg».proof.Proof.Terms
import proofs.«122417_j88742614270706_2_alg».proof.Proof.LibKeeps
import Idealize.ShloMosaic.Lib.StableHlo.Run

set_option maxRecDepth 16384

noncomputable section

namespace Cert.Gcn.KernelValue

open Idealize.ShloMosaic Idealize.ShloMosaic.TcCoe Cert.KernelIdeal
open Cert.KernelIdeal.Facts₀ Cert.KernelIdeal.Facts
open Cert.KernelIdeal.Gen (hostOps0 hostOps0_1 hostOps0_2 hostOps1 hostOps2 hostOps3 W0 W1 W2 W3 W4 W5 W6 W7 W8 W9 V3 V5 V7
  W4_arr W4_of_ne W6_arr W6_of_ne W8_arr W8_of_ne dat0 dat1 dat2 A_eq0 A_eq1 A_eq2)

set_option quotPrecheck false in
local notation "dr" => Proc.devRef (τ := τ) (sig := sig) (.tc : Proc τ)
set_option quotPrecheck false in
local notation "Ct[" s ", " e "]" => BufTy.Contents (Elt Ideal) (⟨s, e⟩ : BufTy)

/-! ## Which buffers each stretch of host operations writes -/

abbrev ops0_W : List (Ref sig .tc) :=
  [main_v0, main_v1, main_v2, main_v3, main_v4, main_v5, main_v6, main_cst, main_v7, main_cst_0, main_v8, main_v9, main_v10,
   main_cst_1, main_v11, main_v12, main_v13, main_cst_2]
theorem ops0_writes : (hostOps0 : List (HloOp τ sig (Elt Ideal))).Forall fun op => op.writes ⊆ (ops0_W.map (Proc.devRef (τ := τ) .tc)).toFinset := by
  host_writes hostOps0
abbrev ops0_1_W : List (Ref sig .tc) := [main_call0_v0, main_call0_v1, main_v14]
theorem ops0_1_writes : (hostOps0_1 : List (HloOp τ sig (Elt Ideal))).Forall fun op => op.writes ⊆ (ops0_1_W.map (Proc.devRef (τ := τ) .tc)).toFinset := by
  host_writes hostOps0_1
abbrev ops0_2_W : List (Ref sig .tc) := [main_v15]
theorem ops0_2_writes : (hostOps0_2 : List (HloOp τ sig (Elt Ideal))).Forall fun op => op.writes ⊆ (ops0_2_W.map (Proc.devRef (τ := τ) .tc)).toFinset := by
  host_writes hostOps0_2
abbrev ops1_W : List (Ref sig .tc) :=
  [main_c, main_v17, main_v18, main_c_3, main_v19, main_v20, main_v21, main_v22, main_v23, main_cst_4, main_v24, main_v25,
   main_v26, main_v27]
theorem ops1_writes : (hostOps1 : List (HloOp τ sig (Elt Ideal))).Forall fun op => op.writes ⊆ (ops1_W.map (Proc.devRef (τ := τ) .tc)).toFinset := by
  host_writes hostOps1

/-! ## What each stretch of host operations computes, from any contents `X` of the buffers it starts from -/

section Stretches
variable (X : Valuation τ sig (Elt Ideal))

/-- The zero vector over the nodes that the degree is accumulated into and compared with. -/
abbrev zeroN : FVec Ideal S100000 .f32 := broadcastInDim S100000 ![] bcast_S_S100000 (constant (F := Ideal) S_ .f32 0x00000000#32)

-- the first stretch: the two edge lists, the degree compared with zero, its inverse square root, and a scalar zero
theorem ops0_v3 : (StableHlo.after hostOps0 X (dr main_v3) : IVec S1700000 32) = edgeRow0 (X (dr main_arg1)) := by
  after_results <;> rfl
theorem ops0_v6 : (StableHlo.after hostOps0 X (dr main_v6) : IVec S1700000 32) = edgeRow1 (X (dr main_arg1)) := by
  after_results <;> rfl
theorem ops0_v12 : (StableHlo.after hostOps0 X (dr main_v12) : Ct[S100000, .i1]) = cmpf .ogt (deg (X (dr main_arg1))) zeroN := by
  after_results <;> rfl
theorem ops0_v13 : (StableHlo.after hostOps0 X (dr main_v13) : FVec Ideal S100000 .f32) = Host.rsqrt (deg (X (dr main_arg1))) := by
  after_results <;> rfl
theorem ops0_cst2 : (StableHlo.after hostOps0 X (dr main_cst_2) : FVec Ideal S_ .f32) = constant (F := Ideal) S_ .f32 0x00000000#32 := by
  after_results <;> rfl

-- the outlined choice: where the degree is positive its inverse square root, elsewhere the scalar spread over the nodes
theorem ops0_1_v14 : (StableHlo.after hostOps0_1 X (dr main_v14) : FVec Ideal S100000 .f32)
    = select (X (dr main_v12)) (X (dr main_v13)) (broadcastInDim S100000 ![] bcast_S_S100000 (X (dr main_cst_2))) := by
  after_results <;> rfl

-- the node factor as a column
theorem ops0_2_v15 : (StableHlo.after hostOps0_2 X (dr main_v15) : FVec Ideal S100000x1 .f32)
    = broadcastInDim S100000x1 ![0] bcast_S100000_S100000x1_0 (X (dr main_v14)) := by
  after_results <;> rfl

/-- Gather the rows of `h` at the sources `s`, add them up at the destinations `d`. -/
abbrev aggregateAt (s d : IVec S1700000 32) (h : FVec Ideal S100000x128 .f32) : FVec Ideal S100000x128 .f32 :=
  Host.scatterAdd scatter_S100000x128_S1700000x1_S1700000x128_1_0_0_1 zeros (col d)
    (Host.gather gather_S100000x128_S1700000x1_S1700000x128_1_0_n_n_0_1_1128 h (wrapCol s))

-- the stretch between the first two kernels: the first aggregate and the bias row as a 1 × 128 array
theorem ops1_v26 : (StableHlo.after hostOps1 X (dr main_v26) : FVec Ideal S100000x128 .f32)
    = aggregateAt (X (dr main_v3)) (X (dr main_v6)) (X (dr main_v16)) := by
  after_results <;> rfl
theorem ops1_v27 : (StableHlo.after hostOps1 X (dr main_v27) : FVec Ideal S1x128 .f32)
    = shapeCast S1x128 (X (dr main_arg4)) shapeCasts_S128_S1x128 := by
  after_results <;> rfl

/-- The embeddings from the second aggregate: scaled by the node factor, plus the bias row. -/
abbrev embed (s d : IVec S1700000 32) (dc : FVec Ideal S100000x1 .f32) (h : FVec Ideal S100000x128 .f32) (b : FVec Ideal S128 .f32) :
    FVec Ideal S100000x128 .f32 :=
  addf (mulf (broadcastInDim S100000x128 ![0, 1] bcast_S100000x1_S100000x128_0_1 dc) (aggregateAt s d h)) (biasRows b)

-- the stretch before the decoder: the embeddings' rows at the two ends of every candidate pair
theorem ops2_v54 : (StableHlo.after hostOps2 X (dr main_v54) : FVec Ideal S200000x128 .f32)
    = rowsAtPair (embed (X (dr main_v3)) (X (dr main_v6)) (X (dr main_v15)) (X (dr main_v28)) (X (dr main_arg6))) (pairCol0 (X (dr main_arg2))) := by
  after_results_simp <;> rfl
theorem ops2_v61 : (StableHlo.after hostOps2 X (dr main_v61) : FVec Ideal S200000x128 .f32)
    = rowsAtPair (embed (X (dr main_v3)) (X (dr main_v6)) (X (dr main_v15)) (X (dr main_v28)) (X (dr main_arg6))) (pairCol1 (X (dr main_arg2))) := by
  after_results_simp <;> rfl

-- the last stretch: the scores as a vector
theorem ops3_v63 : (StableHlo.after hostOps3 X (dr main_v63) : FVec Ideal S200000 .f32)
    = shapeCast S200000 (X (dr main_v62)) shapeCasts_S200000x1_S200000 := by
  after_results <;> rfl

end Stretches

end Cert.Gcn.KernelValue
end
-- ==== Proof.KernelValue.lean ====
/-
  THE KERNEL PROGRAM'S RESULT as a term of its seven arguments, at the extended reals.

  The program is a fold of buffer contents through its segments: host stretch, kernel, host stretch, kernel, host
  stretch, kernel, host stretch. Taking each kernel's output array as the given function of its input arrays (the three
  hypotheses `h0`, `h1`, `h2`: the two layers and the decoder), the buffer the program returns is followed back
  through the fold, one small equation per buffer and boundary, down to the launch contents of the arguments. What
  comes out is `Cert.Gcn.kernelOut`.
-/
import proofs.«122417_j88742614270706_2_alg».proof.Proof.Gen.KernelIdeal.Frame
import proofs.«122417_j88742614270706_2_alg».proof.Proof.Terms
import proofs.«122417_j88742614270706_2_alg».proof.Proof.KernelValueA
import Idealize.ShloMosaic.Lib.StableHlo.Run

set_option maxRecDepth 16384

noncomputable section

namespace Cert.Gcn.KernelValue

open Idealize.ShloMosaic Idealize.ShloMosaic.TcCoe Cert.KernelIdeal
open Cert.KernelIdeal.Facts₀ Cert.KernelIdeal.Facts
open Cert.KernelIdeal.Gen (hostOps0 hostOps0_1 hostOps0_2 hostOps1 hostOps2 hostOps3 W0 W1 W2 W3 W4 W5 W6 W7 W8 W9 V3 V5 V7
  W4_arr W4_of_ne W6_arr W6_of_ne W8_arr W8_of_ne dat0 dat1 dat2 A_eq0 A_eq1 A_eq2)

set_option quotPrecheck false in
local notation "dr" => Proc.devRef (τ := τ) (sig := sig) (.tc : Proc τ)
set_option quotPrecheck false in
local notation "Ct[" s ", " e "]" => BufTy.Contents (Elt Ideal) (⟨s, e⟩ : BufTy)

/-! ## The fold through the program, buffer by buffer

`Wk` are the buffer contents at the segment boundaries. A host stretch's results are read by the lemmas above at the
contents before it; a kernel's output array is its region's value (a hypothesis here) at the contents on entry; every
other buffer is carried over unchanged — across a stretch because the stretch does not write it, across a kernel
because it is none of the kernel's arrays, or is one of its input arrays. -/

section Run
variable (m : (ℓ : Loc nD τ sig) → Buf (Elt Ideal) ℓ) (ρ : Dev nD → PrngReg) (c : Dev nD)

set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "A3" => m ((c : Thread nD τ).loc main_arg3)
set_option quotPrecheck false in
local notation "A4" => m ((c : Thread nD τ).loc main_arg4)
set_option quotPrecheck false in
local notation "A5" => m ((c : Thread nD τ).loc main_arg5)
set_option quotPrecheck false in
local notation "A6" => m ((c : Thread nD τ).loc main_arg6)

/-! ### After the first stretch -/

theorem W1_v3 : (W1 m ρ c (dr main_v3) : IVec S1700000 32) = edgeRow0 A1 := ops0_v3 (W0 m ρ c)
theorem W1_v6 : (W1 m ρ c (dr main_v6) : IVec S1700000 32) = edgeRow1 A1 := ops0_v6 (W0 m ρ c)
theorem W1_v12 : (W1 m ρ c (dr main_v12) : Ct[S100000, .i1]) = cmpf .ogt (deg A1) zeroN := ops0_v12 (W0 m ρ c)
theorem W1_v13 : (W1 m ρ c (dr main_v13) : FVec Ideal S100000 .f32) = Host.rsqrt (deg A1) := ops0_v13 (W0 m ρ c)
theorem W1_cst2 : (W1 m ρ c (dr main_cst_2) : FVec Ideal S_ .f32) = constant (F := Ideal) S_ .f32 0x00000000#32 := ops0_cst2 (W0 m ρ c)
theorem W1_keep (r : Ref sig .tc) (h : r ∉ ops0_W) : W1 m ρ c (dr r) = m ((c : Thread nD τ).loc r) :=
  StableHlo.after_of_writes_sub hostOps0 _ ops0_writes h

/-! ### After the outlined choice: the node factor -/

theorem W2_v14 : (W2 m ρ c (dr main_v14) : FVec Ideal S100000 .f32) = dis A1 := by
  refine (ops0_1_v14 (W1 m ρ c)).trans ?_
  rw [W1_v12 m ρ c, W1_v13 m ρ c, W1_cst2 m ρ c]; rfl
theorem W2_v3 : (W2 m ρ c (dr main_v3) : IVec S1700000 32) = edgeRow0 A1 :=
  (StableHlo.after_of_writes_sub hostOps0_1 _ ops0_1_writes (by decide)).trans (W1_v3 m ρ c)
theorem W2_v6 : (W2 m ρ c (dr main_v6) : IVec S1700000 32) = edgeRow1 A1 :=
  (StableHlo.after_of_writes_sub hostOps0_1 _ ops0_1_writes (by decide)).trans (W1_v6 m ρ c)
theorem W2_keep (r : Ref sig .tc) (h : r ∉ ops0_W) (h' : r ∉ ops0_1_W) : W2 m ρ c (dr r) = m ((c : Thread nD τ).loc r) :=
  (StableHlo.after_of_writes_sub hostOps0_1 _ ops0_1_writes h').trans (W1_keep m ρ c r h)

/-! ### On entry to the first kernel -/

theorem W3_v15 : (W3 m ρ c (dr main_v15) : FVec Ideal S100000x1 .f32) = disCol A1 := by
  refine (ops0_2_v15 (W2 m ρ c)).trans ?_
  rw [W2_v14 m ρ c]; rfl
theorem W3_v3 : (W3 m ρ c (dr main_v3) : IVec S1700000 32) = edgeRow0 A1 :=
  (StableHlo.after_of_writes_sub hostOps0_2 _ ops0_2_writes (by decide)).trans (W2_v3 m ρ c)
theorem W3_v6 : (W3 m ρ c (dr main_v6) : IVec S1700000 32) = edgeRow1 A1 :=
  (StableHlo.after_of_writes_sub hostOps0_2 _ ops0_2_writes (by decide)).trans (W2_v6 m ρ c)
theorem W3_keep (r : Ref sig .tc) (h : r ∉ ops0_W) (h' : r ∉ ops0_1_W) (h'' : r ∉ ops0_2_W) :
    W3 m ρ c (dr r) = m ((c : Thread nD τ).loc r) :=
  (StableHlo.after_of_writes_sub hostOps0_2 _ ops0_2_writes h'').trans (W2_keep m ρ c r h h')

/-! ### The first kernel -/

section
variable (h0 : ∀ (V : (c : Dev nD) → (b : Ref sig .tc) → Buf (Elt Ideal) ((c : Thread nD τ).loc b)) (c : Dev nD),
    (dat0 (F := Ideal) V c).arrAt 3 cfg0.N = layer1 (V c main_arg0) (V c main_arg3) (V c main_v15))
include h0

theorem W4_v16 : (W4 m ρ c (dr main_v16) : FVec Ideal S100000x128 .f32) = layer1 A0 A3 (disCol A1) := by
  refine (W4_arr m ρ c 3).trans ((h0 (V3 m ρ) c).trans ?_)
  exact congr (congr (congrArg layer1 (W3_keep m ρ c main_arg0 (by decide) (by decide) (by decide)))
    (W3_keep m ρ c main_arg3 (by decide) (by decide) (by decide))) (W3_v15 m ρ c)
end

theorem W4_v3 : (W4 m ρ c (dr main_v3) : IVec S1700000 32) = edgeRow0 A1 :=
  (W4_of_ne m ρ c main_v3 (by decide)).trans (W3_v3 m ρ c)
theorem W4_v6 : (W4 m ρ c (dr main_v6) : IVec S1700000 32) = edgeRow1 A1 :=
  (W4_of_ne m ρ c main_v6 (by decide)).trans (W3_v6 m ρ c)
-- the node-factor column is one of the kernel's input arrays: it leaves it as it found it
theorem W4_v15 : (W4 m ρ c (dr main_v15) : FVec Ideal S100000x1 .f32) = disCol A1 :=
  ((W4_arr m ρ c 2).trans (((dat0 (V3 m ρ) c).arrAt_in 2 rfl _).trans (A_eq0 (V3 m ρ) c 2))).trans (W3_v15 m ρ c)
theorem W4_keep (r : Ref sig .tc) (hw : ∀ w, Pipeline.arrRef spec0 w ≠ r) (h : r ∉ ops0_W) (h' : r ∉ ops0_1_W) (h'' : r ∉ ops0_2_W) :
    W4 m ρ c (dr r) = m ((c : Thread nD τ).loc r) :=
  (W4_of_ne m ρ c r hw).trans (W3_keep m ρ c r h h' h'')

/-! ### Between the first two kernels: the first aggregate -/

section
variable (h0 : ∀ (V : (c : Dev nD) → (b : Ref sig .tc) → Buf (Elt Ideal) ((c : Thread nD τ).loc b)) (c : Dev nD),
    (dat0 (F := Ideal) V c).arrAt 3 cfg0.N = layer1 (V c main_arg0) (V c main_arg3) (V c main_v15))
include h0

theorem W5_v26 : (W5 m ρ c (dr main_v26) : FVec Ideal S100000x128 .f32) = kAgg0 A0 A1 A3 := by
  refine (ops1_v26 (W4 m ρ c)).trans ?_
  exact congr (congr (congrArg aggregateAt (W4_v3 m ρ c)) (W4_v6 m ρ c)) (W4_v16 m ρ c h0)
end

theorem W5_v27 : (W5 m ρ c (dr main_v27) : FVec Ideal S1x128 .f32) = shapeCast S1x128 A4 shapeCasts_S128_S1x128 :=
  (ops1_v27 (W4 m ρ c)).trans (congrArg (fun a : FVec Ideal S128 .f32 => shapeCast S1x128 a shapeCasts_S128_S1x128)
    (W4_keep m ρ c main_arg4 (by decide) (by decide) (by decide) (by decide)))
theorem W5_v3 : (W5 m ρ c (dr main_v3) : IVec S1700000 32) = edgeRow0 A1 :=
  (StableHlo.after_of_writes_sub hostOps1 _ ops1_writes (by decide)).trans (W4_v3 m ρ c)
theorem W5_v6 : (W5 m ρ c (dr main_v6) : IVec S1700000 32) = edgeRow1 A1 :=
  (StableHlo.after_of_writes_sub hostOps1 _ ops1_writes (by decide)).trans (W4_v6 m ρ c)
theorem W5_v15 : (W5 m ρ c (dr main_v15) : FVec Ideal S100000x1 .f32) = disCol A1 :=
  (StableHlo.after_of_writes_sub hostOps1 _ ops1_writes (by decide)).trans (W4_v15 m ρ c)
theorem W5_keep (r : Ref sig .tc) (hw : ∀ w, Pipeline.arrRef spec0 w ≠ r) (h : r ∉ ops0_W) (h' : r ∉ ops0_1_W) (h'' : r ∉ ops0_2_W)
    (h1 : r ∉ ops1_W) : W5 m ρ c (dr r) = m ((c : Thread nD τ).loc r) :=
  (StableHlo.after_of_writes_sub hostOps1 _ ops1_writes h1).trans (W4_keep m ρ c r hw h h' h'')

/-! ### The second kernel -/

section
variable (h0 : ∀ (V : (c : Dev nD) → (b : Ref sig .tc) → Buf (Elt Ideal) ((c : Thread nD τ).loc b)) (c : Dev nD),
    (dat0 (F := Ideal) V c).arrAt 3 cfg0.N = layer1 (V c main_arg0) (V c main_arg3) (V c main_v15))
  (h1 : ∀ (V : (c : Dev nD) → (b : Ref sig .tc) → Buf (Elt Ideal) ((c : Thread nD τ).loc b)) (c : Dev nD),
    (dat1 (F := Ideal) V c).arrAt 4 cfg1.N = layer2 (V c main_v26) (V c main_v27) (V c main_v15) (V c main_arg5))
include h0 h1

theorem W6_v28 : (W6 m ρ c (dr main_v28) : FVec Ideal S100000x128 .f32)
    = layer2 (kAgg0 A0 A1 A3) (shapeCast S1x128 A4 shapeCasts_S128_S1x128) (disCol A1) A5 := by
  refine (W6_arr m ρ c 4).trans ((h1 (V5 m ρ) c).trans ?_)
  exact congr (congr (congr (congrArg layer2 (W5_v26 m ρ c h0)) (W5_v27 m ρ c)) (W5_v15 m ρ c))
    (W5_keep m ρ c main_arg5 (by decide) (by decide) (by decide) (by decide) (by decide))
end

theorem W6_v3 : (W6 m ρ c (dr main_v3) : IVec S1700000 32) = edgeRow0 A1 :=
  (W6_of_ne m ρ c main_v3 (by decide)).trans (W5_v3 m ρ c)
theorem W6_v6 : (W6 m ρ c (dr main_v6) : IVec S1700000 32) = edgeRow1 A1 :=
  (W6_of_ne m ρ c main_v6 (by decide)).trans (W5_v6 m ρ c)
-- the node-factor column is again an input array of the kernel
theorem W6_v15 : (W6 m ρ c (dr main_v15) : FVec Ideal S100000x1 .f32) = disCol A1 :=
  ((W6_arr m ρ c 2).trans (((dat1 (V5 m ρ) c).arrAt_in 2 rfl _).trans (A_eq1 (V5 m ρ) c 2))).trans (W5_v15 m ρ c)
theorem W6_keep (r : Ref sig .tc) (hw : ∀ w, Pipeline.arrRef spec0 w ≠ r) (hw1 : ∀ w, Pipeline.arrRef spec1 w ≠ r) (h : r ∉ ops0_W)
    (h' : r ∉ ops0_1_W) (h'' : r ∉ ops0_2_W) (h1 : r ∉ ops1_W) : W6 m ρ c (dr r) = m ((c : Thread nD τ).loc r) :=
  (W6_of_ne m ρ c r hw1).trans (W5_keep m ρ c r hw h h' h'' h1)

/-! ### Before the decoder, the decoder, and the result -/

section
variable (h0 : ∀ (V : (c : Dev nD) → (b : Ref sig .tc) → Buf (Elt Ideal) ((c : Thread nD τ).loc b)) (c : Dev nD),
    (dat0 (F := Ideal) V c).arrAt 3 cfg0.N = layer1 (V c main_arg0) (V c main_arg3) (V c main_v15))
  (h1 : ∀ (V : (c : Dev nD) → (b : Ref sig .tc) → Buf (Elt Ideal) ((c : Thread nD τ).loc b)) (c : Dev nD),
    (dat1 (F := Ideal) V c).arrAt 4 cfg1.N = layer2 (V c main_v26) (V c main_v27) (V c main_v15) (V c main_arg5))
include h0 h1

/-- The embeddings, as the stretch before the decoder computes them, are the program's `kZ`. -/
theorem W6_embed : embed (W6 m ρ c (dr main_v3)) (W6 m ρ c (dr main_v6)) (W6 m ρ c (dr main_v15)) (W6 m ρ c (dr main_v28))
      (W6 m ρ c (dr main_arg6)) = kZ A0 A1 A3 A4 A5 A6 :=
  congr (congr (congr (congr (congrArg embed (W6_v3 m ρ c)) (W6_v6 m ρ c)) (W6_v15 m ρ c)) (W6_v28 m ρ c h0 h1))
    (W6_keep m ρ c main_arg6 (by decide) (by decide) (by decide) (by decide) (by decide) (by decide))

theorem W7_v54 : (W7 m ρ c (dr main_v54) : FVec Ideal S200000x128 .f32) = rowsAtPair (kZ A0 A1 A3 A4 A5 A6) (pairCol0 A2) :=
  (ops2_v54 (W6 m ρ c)).trans (congr (congrArg rowsAtPair (W6_embed m ρ c h0 h1))
    (congrArg pairCol0 (W6_keep m ρ c main_arg2 (by decide) (by decide) (by decide) (by decide) (by decide) (by decide))))
theorem W7_v61 : (W7 m ρ c (dr main_v61) : FVec Ideal S200000x128 .f32) = rowsAtPair (kZ A0 A1 A3 A4 A5 A6) (pairCol1 A2) :=
  (ops2_v61 (W6 m ρ c)).trans (congr (congrArg rowsAtPair (W6_embed m ρ c h0 h1))
    (congrArg pairCol1 (W6_keep m ρ c main_arg2 (by decide) (by decide) (by decide) (by decide) (by decide) (by decide))))

variable (h2 : ∀ (V : (c : Dev nD) → (b : Ref sig .tc) → Buf (Elt Ideal) ((c : Thread nD τ).loc b)) (c : Dev nD),
    (dat2 (F := Ideal) V c).arrAt 2 cfg2.N = decode (V c main_v54) (V c main_v61))
include h2

theorem W8_v62 : (W8 m ρ c (dr main_v62) : FVec Ideal S200000x1 .f32)
    = decode (rowsAtPair (kZ A0 A1 A3 A4 A5 A6) (pairCol0 A2)) (rowsAtPair (kZ A0 A1 A3 A4 A5 A6) (pairCol1 A2)) :=
  (W8_arr m ρ c 2).trans ((h2 (V7 m ρ) c).trans (congr (congrArg decode (W7_v54 m ρ c h0 h1)) (W7_v61 m ρ c h0 h1)))

/-- THE RESULT: what the program returns is `kernelOut` of the launch contents of its seven arguments. -/
theorem W9_v63 : W9 m ρ c (Proc.devRef .tc main_v63) = kernelOut A0 A1 A2 A3 A4 A5 A6 :=
  (ops3_v63 (W8 m ρ c)).trans (congrArg (fun s : FVec Ideal S200000x1 .f32 => shapeCast S200000 s shapeCasts_S200000x1_S200000)
    (W8_v62 m ρ c h0 h1 h2))
end

end Run

/-- THE RESULT: given the three kernels' values, what the program returns is `kernelOut` of the launch contents of its
    seven arguments. -/
theorem result
    (h0 : ∀ (V : (c : Dev nD) → (b : Ref sig .tc) → Buf (Elt Ideal) ((c : Thread nD τ).loc b)) (c : Dev nD),
      (dat0 (F := Ideal) V c).arrAt 3 cfg0.N = layer1 (V c main_arg0) (V c main_arg3) (V c main_v15))
    (h1 : ∀ (V : (c : Dev nD) → (b : Ref sig .tc) → Buf (Elt Ideal) ((c : Thread nD τ).loc b)) (c : Dev nD),
      (dat1 (F := Ideal) V c).arrAt 4 cfg1.N = layer2 (V c main_v26) (V c main_v27) (V c main_v15) (V c main_arg5))
    (h2 : ∀ (V : (c : Dev nD) → (b : Ref sig .tc) → Buf (Elt Ideal) ((c : Thread nD τ).loc b)) (c : Dev nD),
      (dat2 (F := Ideal) V c).arrAt 2 cfg2.N = decode (V c main_v54) (V c main_v61))
    (m : (ℓ : Loc nD τ sig) → Buf (Elt Ideal) ℓ) (ρ : Dev nD → PrngReg) (c : Dev nD) :
    W9 m ρ c (Proc.devRef .tc main_v63)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  W9_v63 m ρ c h0 h1 h2

end Cert.Gcn.KernelValue
end
-- ==== Proof.LibTiles.lean ====
/-
  Two-dimensional tiles over the extended reals, read entry by entry.

  * a product of an m×k tile by a k×n tile accumulated into the zero tile: entry (a, b) is the sum over the contracted
    coordinate of the products of the entries;
  * a column (an m×1 tile) laid across n columns: entry (a, b) is the column's entry a;
  * a row (a 1×n tile) laid down m rows: entry (a, b) is the row's entry b.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx

variable {m n : Nat}

/-- The product of an m×k tile by a k×n tile (left operand contracted on its columns, right operand on its rows, no
    batch axes), accumulated into the zero tile, read at entry (a, b): the sum over the contracted coordinate `c` of
    `A (a, c) * B (c, b)`. `w` is the well-formedness of the dimension numbers, which a program states. -/
theorem matmul_zero_apply {k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column laid across the columns of an m×n tile, read at entry (a, b): the column's entry `a`. -/
theorem broadcast_col_apply {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) ?_
  intro ax
  match ax with
  | ⟨0, _⟩ =>
    show a.val = if m = 1 then 0 else a.val
    split
    · have := a.isLt; omega
    · rfl
  | ⟨1, _⟩ => rfl

/-- A row laid down the rows of an m×n tile, read at entry (a, b): the row's entry `b`. -/
theorem broadcast_row_apply {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) ?_
  intro ax
  match ax with
  | ⟨0, _⟩ => rfl
  | ⟨1, _⟩ =>
    show b.val = if n = 1 then 0 else b.val
    split
    · have := b.isLt; omega
    · rfl

end Cert.LibTiles

end
-- ==== Proof.Region0.lean ====
/-
  The first layer's region, read as one array: every row block of the output is the matching row block of
  `Cert.Gcn.layer1` of the three arrays the region reads, and the twenty row blocks tile the output.

  * `pay_apply`   : the body's stored tile at entry (p, q) — row p of the feature tile times column q of the weights,
                    times entry p of the factor column.
  * `blk_x`, `blk_w`, `blk_d` : each input tile at a grid point as entries of its array (the feature rows and the factor
                    column move with the point, 5000 rows a step; the weights are read whole).
  * `written_eq`  : what point t writes back is block t of `layer1`.
  * `final`       : the output array after the region.
-/
import proofs.«122417_j88742614270706_2_alg».proof.Proof.Spec
import proofs.«122417_j88742614270706_2_alg».proof.Proof.LibTiles
import proofs.«122417_j88742614270706_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gcn.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored tile at entry (p, q): the product of the feature tile and the weights accumulated into zero, times the
    factor column laid across the 128 columns. -/
theorem pay_apply (x0 : Vec Ideal S5000x256 .f32) (x1 : Vec Ideal S256x128 .f32) (x2 : Vec Ideal S5000x1 .f32)
    (p : Fin 5000) (q : Fin 128) :
    k0_pay1 (F := Ideal) x0 x1 x2 (ix2 p q)
      = (∑ k : Fin 256, x0 (ix2 p k) * x1 (ix2 k q)) * x2 (ix2 p (0 : Fin 1)) := by
  unfold k0_pay1
  show mulf (matmul dot_S5000x256_S256x128_S5000x128_1_0_0_1_n_n none x0 x1 (constant (F := Ideal) S5000x128 .f32 0x00000000#32))
      (broadcastTo S5000x128 (shapeCast S5000x1 x2 shapeCasts_S5000x1_S5000x1) broadcasts_S5000x1_S5000x128) (ix2 p q) = _
  rw [mulf_apply, shapeCast_self, Cert.LibTiles.broadcast_col_apply x2 broadcasts_S5000x1_S5000x128 p q]
  exact congrArg (· * x2 (ix2 p (0 : Fin 1)))
    (Cert.LibTiles.matmul_zero_apply dot_S5000x256_S256x128_S5000x128_1_0_0_1_n_n_wf none x0 x1 p q)

/-- The entry of `layer1` at an index of row `i 0`, from a tile whose row p is that row of the features, whose
    weights are the weights and whose factor p is that row's factor. -/
theorem entry_eq (x0 : Vec Ideal S5000x256 .f32) (x1 : Vec Ideal S256x128 .f32) (x2 : Vec Ideal S5000x1 .f32)
    (X : FVec Ideal ⟨2, ![100000, 256]⟩ .f32) (W : FVec Ideal ⟨2, ![256, 128]⟩ .f32) (D : FVec Ideal ⟨2, ![100000, 1]⟩ .f32)
    (p : Fin 5000) (q : Fin 128) (i : (⟨2, ![100000, 128]⟩ : Shape).Idx)
    (h0 : ∀ k : Fin 256, x0 (ix2 p k) = X (ix2 (i 0) k))
    (h1 : ∀ k : Fin 256, x1 (ix2 k q) = W (ix2 k (i 1)))
    (h2 : x2 (ix2 p (0 : Fin 1)) = D (ix2 (i 0) 0)) :
    k0_pay1 (F := Ideal) x0 x1 x2 (ix2 p q) = layer1 X W D i := by
  rw [pay_apply, h2]
  unfold layer1
  exact congrArg (· * D (ix2 (i 0) 0)) (Finset.sum_congr rfl fun k _ => by rw [h0 k, h1 k])

/-- The printed index maps, decided over the twenty grid points: the feature rows, the factor column and the output
    move with the point along the rows; the weights stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature tile at point t: rows 5000·t … 5000·t + 4999 of the feature array. -/
theorem blk_x (c : Dev nD) (t : Fin cfg0.N) (y : S5000x256.Idx) (i : S100000x256.Idx)
    (h0 : (i 0).val = 5000 * t.val + (y 0).val) (h1 : (i 1).val = (y 1).val) :
    (iblk0 V c 0 t : Vec Ideal S5000x256 .f32) y = (V c main_arg0 : S100000x256.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The weight tile at every point: the whole weight array. -/
theorem blk_w (c : Dev nD) (t : Fin cfg0.N) (y : S256x128.Idx) (i : S256x128.Idx)
    (h0 : (i 0).val = (y 0).val) (h1 : (i 1).val = (y 1).val) :
    (iblk0 V c 1 t : Vec Ideal S256x128 .f32) y = (V c main_arg3 : S256x128.Idx → Elt Ideal .f32) i := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 256 + 1 * (y 0).val = (i 0).val; rw [e0, h0]; omega
  | ⟨1, _⟩ => show win0_1.index t (1 : Fin 2) * 128 + 1 * (y 1).val = (i 1).val; rw [e1, h1]; omega

/-- The factor tile at point t: entries 5000·t … 5000·t + 4999 of the factor column. -/
theorem blk_d (c : Dev nD) (t : Fin cfg0.N) (y : S5000x1.Idx) (i : S100000x1.Idx)
    (h0 : (i 0).val = 5000 * t.val + (y 0).val) (h1 : (i 1).val = (y 1).val) :
    (iblk0 V c 2 t : Vec Ideal S5000x1 .f32) y = (V c main_v15 : S100000x1.Idx → Elt Ideal .f32) i := by
  obtain ⟨-, -, -, -, e0, e1, -⟩ := idx_facts t
  unfold iblk0
  rw [View.read_apply]
  show V c main_v15 _ = V c main_v15 _
  congr 1
  funext a
  apply Fin.ext
  match a with
  | ⟨0, _⟩ => show win0_2.index t (0 : Fin 2) * 5000 + 1 * (y 0).val = (i 0).val; rw [e0, h0]; omega
  | ⟨1, _⟩ => show win0_2.index t (1 : Fin 2) * 1 + 1 * (y 1).val = (i 1).val; rw [e1, h1]; omega

/-- WHAT POINT t WRITES BACK is block t of `layer1` of the arrays as the region finds them. -/
theorem written_eq (c : Dev nD) (t : Fin cfg0.N) :
    (dat0 (F := Ideal) V c).flushed 3 t
      = ((cfg0.win 3).blk t).view.read (Elt Ideal) (layer1 (V c main_arg0) (V c main_arg3) (V c main_v15)) := by
  show (cfg0.win 3).cut (grid0.coords t) ((dat0 (F := Ideal) V c).after 3 t) = _
  rw [after0_3]
  unfold out0_3
  rw [View.canon_unit_zero hz]
  simp only [View.ld_unit_zero (S := S5000x256) hz, View.ld_unit_zero (S := S256x128) hz,
    View.ld_unit_zero (S := S5000x1) hz]
  obtain ⟨-, -, -, -, -, -, e0, e1⟩ := idx_facts t
  funext j
  have hi0 : ((((cfg0.win 3).blk t).view.emb j) 0).val = 5000 * t.val + (j 0).val := by
    show win0_3.index t (0 : Fin 2) * 5000 + 1 * (j 0).val = _; rw [e0]; omega
  have hi1 : ((((cfg0.win 3).blk t).view.emb j) 1).val = (j 1).val := by
    show win0_3.index t (1 : Fin 2) * 128 + 1 * (j 1).val = _; rw [e1]; omega
  show k0_pay1 (F := Ideal) (iblk0 V c 0 t) (iblk0 V c 1 t) (iblk0 V c 2 t) j
      = layer1 (V c main_arg0) (V c main_arg3) (V c main_v15) (((cfg0.win 3).blk t).view.emb j)
  refine (congrArg (k0_pay1 (F := Ideal) (iblk0 V c 0 t) (iblk0 V c 1 t) (iblk0 V c 2 t)) (eq_ix2 (n0 := 5000) (n1 := 128) j)).trans ?_
  refine entry_eq (iblk0 V c 0 t) (iblk0 V c 1 t) (iblk0 V c 2 t) (V c main_arg0) (V c main_arg3) (V c main_v15)
    (j 0) (j 1) (((cfg0.win 3).blk t).view.emb j) (fun k => ?_) (fun k => ?_) ?_
  · exact blk_x V c t _ _ hi0 rfl
  · exact blk_w V c t _ _ rfl hi1
  · exact blk_d V c t _ _ hi0 rfl

/-- An index of the output is in point t's block iff each coordinate is in the block's range on its axis. -/
theorem mem_blk (t : Fin cfg0.N) (i : S100000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every index of the output is in the block of the point its row falls in: row r is point r / 5000's. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- THE OUTPUT ARRAY after the region: `layer1` of the features, the weights and the factor column as the region
    finds them. -/
theorem final (c : Dev nD) :
    (dat0 (F := Ideal) V c).arrAt 3 cfg0.N = layer1 (V c main_arg0) (V c main_arg3) (V c main_v15) :=
  (dat0 (F := Ideal) V c).arrAt_eq_of_cover 3 (layer1 (V c main_arg0) (V c main_arg3) (V c main_v15))
    (fun t _ => written_eq V c t) covered

end Cert.Gcn.Region0

end
-- ==== Proof.Region1.lean ====
/-
  The second layer's region, read as one array: every row block of the output is the matching row block of
  `Cert.Gcn.layer2` of the four arrays the region reads, and the twenty row blocks tile the output.

  * `pay_apply`   : the body's stored tile at entry (p, q) — the hidden row p (factor p times the aggregate row p, plus
                    the bias row, clipped below at zero) times column q of the weights, times factor p again.
  * `blk_a`, `blk_b`, `blk_d`, `blk_w` : each input tile at a grid point as entries of its array (the aggregate rows and
                    the factor column move with the point, 5000 rows a step; the bias row and the weights are read whole).
  * `written_eq`  : what point t writes back is block t of `layer2`.
  * `final`       : the output array after the region.
-/
import proofs.«122417_j88742614270706_2_alg».proof.Proof.Spec
import proofs.«122417_j88742614270706_2_alg».proof.Proof.LibTiles
import proofs.«122417_j88742614270706_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gcn.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored tile at entry (p, q). The hidden tile is the factor column laid across the columns times the aggregate
    tile, plus the bias row laid down the rows, clipped below at zero; the stored tile is its product with the weights
    accumulated into zero, times the factor column laid across the columns. -/
theorem pay_apply (v0 : Vec Ideal S5000x1 .f32) (v2 : Vec Ideal S5000x128 .f32) (v6 : Vec Ideal S1x128 .f32)
    (v12 : Vec Ideal S128x128 .f32) (p : Fin 5000) (q : Fin 128) :
    k1_pay1 (F := Ideal) v0 v2 v6 v12 (ix2 p q)
      = (∑ k : Fin 128, max (v0 (ix2 p (0 : Fin 1)) * v2 (ix2 p k) + v6 (ix2 (0 : Fin 1) k)) 0 * v12 (ix2 k q))
          * v0 (ix2 p (0 : Fin 1)) := by
  unfold k1_pay1
  show mulf (matmul dot_S5000x128_S128x128_S5000x128_1_0_0_1_n_n none
        (maximumf (addf (mulf (broadcastTo S5000x128 (shapeCast S5000x1 v0 shapeCasts_S5000x1_S5000x1) broadcasts_S5000x1_S5000x128)
              (shapeCast S5000x128 v2 shapeCasts_S5000x128_S5000x128))
            (broadcastTo S5000x128 (shapeCast S1x128 v6 shapeCasts_S1x128_S1x128) broadcasts_S1x128_S5000x128))
          (broadcast S5000x128 _))
        v12 (constant (F := Ideal) S5000x128 .f32 0x00000000#32))
      (broadcastTo S5000x128 (shapeCast S5000x1 v0 shapeCasts_S5000x1_S5000x1) broadcasts_S5000x1_S5000x128) (ix2 p q) = _
  simp only [shapeCast_self]
  rw [mulf_apply, Cert.LibTiles.broadcast_col_apply v0 broadcasts_S5000x1_S5000x128 p q]
  refine congrArg (· * v0 (ix2 p (0 : Fin 1))) ?_
  refine (Cert.LibTiles.matmul_zero_apply dot_S5000x128_S128x128_S5000x128_1_0_0_1_n_n_wf none _ v12 p q).trans ?_
  refine Finset.sum_congr rfl fun k _ => ?_
  rw [maximumf_apply, addf_apply, mulf_apply, broadcast_apply,
    Cert.LibTiles.broadcast_col_apply v0 broadcasts_S5000x1_S5000x128 p k,
    Cert.LibTiles.broadcast_row_apply v6 broadcasts_S1x128_S5000x128 p k]
  show max _ (Ideal.ofBits .f32 0x00000000#32) * _ = _
  rw [Ideal.ofBits_zero_f32]

/-- The entry of `layer2` at an index of row `i 0`, from tiles whose row p is that row of the aggregate and of the
    factor column, whose bias row is the bias row and whose weights are the weights. -/
theorem entry_eq (x0 : Vec Ideal S5000x128 .f32) (x1 : Vec Ideal S1x128 .f32) (x2 : Vec Ideal S5000x1 .f32)
    (x3 : Vec Ideal S128x128 .f32)
    (A : FVec Ideal ⟨2, ![100000, 128]⟩ .f32) (B : FVec Ideal ⟨2, ![1, 128]⟩ .f32) (D : FVec Ideal ⟨2, ![100000, 1]⟩ .f32)
    (W : FVec Ideal ⟨2, ![128, 128]⟩ .f32)
    (p : Fin 5000) (q : Fin 128) (i : (⟨2, ![100000, 128]⟩ : Shape).Idx)
    (h0 : ∀ k : Fin 128, x0 (ix2 p k) = A (ix2 (i 0) k))
    (h1 : ∀ k : Fin 128, x1 (ix2 (0 : Fin 1) k) = B (ix2 0 k))
    (h2 : x2 (ix2 p (0 : Fin 1)) = D (ix2 (i 0) 0))
    (h3 : ∀ k : Fin 128, x3 (ix2 k q) = W (ix2 k (i 1))) :
    k1_pay1 (F := Ideal) x2 x0 x1 x3 (ix2 p q) = layer2 A B D W i := by
  rw [pay_apply, h2]
  unfold layer2
  exact congrArg (· * D (ix2 (i 0) 0)) (Finset.sum_congr rfl fun k _ => by rw [h0 k, h1 k, h3 k])

/-- The printed index maps, decided over the twenty grid points: the aggregate rows, the factor column and the output
    move with the point along the rows; the bias row and the weights stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate tile at point t: rows 5000·t … 5000·t + 4999 of the aggregate. -/
theorem blk_a (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v26 : S100000x128.Idx → Elt Ideal .f32) i := by
  obtain ⟨e0, e1, -⟩ := idx_facts t
  unfold iblk1
  rw [View.read_apply]
  show V c main_v26 _ = V c main_v26 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias tile at every point: the whole bias row. -/
theorem blk_b (c : Dev nD) (t : Fin cfg1.N) (y : S1x128.Idx) (i : S1x128.Idx)
    (h0 : (i 0).val = (y 0).val) (h1 : (i 1).val = (y 1).val) :
    (iblk1 V c 1 t : Vec Ideal S1x128 .f32) y = (V c main_v27 : S1x128.Idx → Elt Ideal .f32) i := by
  obtain ⟨-, -, e0, e1, -⟩ := idx_facts t
  unfold iblk1
  rw [View.read_apply]
  show V c main_v27 _ = V c main_v27 _
  congr 1
  funext a
  apply Fin.ext
  match a with
  | ⟨0, _⟩ => show win1_1.index t (0 : Fin 2) * 1 + 1 * (y 0).val = (i 0).val; rw [e0, h0]; omega
  | ⟨1, _⟩ => show win1_1.index t (1 : Fin 2) * 128 + 1 * (y 1).val = (i 1).val; rw [e1, h1]; omega

/-- The factor tile at point t: entries 5000·t … 5000·t + 4999 of the factor column. -/
theorem blk_d (c : Dev nD) (t : Fin cfg1.N) (y : S5000x1.Idx) (i : S100000x1.Idx)
    (h0 : (i 0).val = 5000 * t.val + (y 0).val) (h1 : (i 1).val = (y 1).val) :
    (iblk1 V c 2 t : Vec Ideal S5000x1 .f32) y = (V c main_v15 : S100000x1.Idx → Elt Ideal .f32) i := by
  obtain ⟨-, -, -, -, e0, e1, -⟩ := idx_facts t
  unfold iblk1
  rw [View.read_apply]
  show V c main_v15 _ = V c main_v15 _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- The weight tile at every point: the whole weight array. -/
theorem blk_w (c : Dev nD) (t : Fin cfg1.N) (y : S128x128.Idx) (i : S128x128.Idx)
    (h0 : (i 0).val = (y 0).val) (h1 : (i 1).val = (y 1).val) :
    (iblk1 V c 3 t : Vec Ideal S128x128 .f32) y = (V c main_arg5 : S128x128.Idx → Elt Ideal .f32) i := by
  obtain ⟨-, -, -, -, -, -, e0, e1, -⟩ := idx_facts t
  unfold iblk1
  rw [View.read_apply]
  show V c main_arg5 _ = V c main_arg5 _
  congr 1
  funext a
  apply Fin.ext
  match a with
  | ⟨0, _⟩ => show win1_3.index t (0 : Fin 2) * 128 + 1 * (y 0).val = (i 0).val; rw [e0, h0]; omega
  | ⟨1, _⟩ => show win1_3.index t (1 : Fin 2) * 128 + 1 * (y 1).val = (i 1).val; rw [e1, h1]; omega

/-- WHAT POINT t WRITES BACK is block t of `layer2` of the arrays as the region finds them. -/
theorem written_eq (c : Dev nD) (t : Fin cfg1.N) :
    (dat1 (F := Ideal) V c).flushed 4 t
      = ((cfg1.win 4).blk t).view.read (Elt Ideal)
          (layer2 (V c main_v26) (V c main_v27) (V c main_v15) (V c main_arg5)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S1x128) hz,
    View.ld_unit_zero (S := S5000x1) hz, View.ld_unit_zero (S := S128x128) hz]
  obtain ⟨-, -, -, -, -, -, -, -, e0, e1⟩ := idx_facts t
  funext j
  have hi0 : ((((cfg1.win 4).blk t).view.emb j) 0).val = 5000 * t.val + (j 0).val := by
    show win1_4.index t (0 : Fin 2) * 5000 + 1 * (j 0).val = _; rw [e0]; omega
  have hi1 : ((((cfg1.win 4).blk t).view.emb j) 1).val = (j 1).val := by
    show win1_4.index t (1 : Fin 2) * 128 + 1 * (j 1).val = _; rw [e1]; omega
  show k1_pay1 (F := Ideal) (iblk1 V c 2 t) (iblk1 V c 0 t) (iblk1 V c 1 t) (iblk1 V c 3 t) j
      = layer2 (V c main_v26) (V c main_v27) (V c main_v15) (V c main_arg5) (((cfg1.win 4).blk t).view.emb j)
  refine (congrArg (k1_pay1 (F := Ideal) (iblk1 V c 2 t) (iblk1 V c 0 t) (iblk1 V c 1 t) (iblk1 V c 3 t))
    (eq_ix2 (n0 := 5000) (n1 := 128) j)).trans ?_
  refine entry_eq (iblk1 V c 0 t) (iblk1 V c 1 t) (iblk1 V c 2 t) (iblk1 V c 3 t)
    (V c main_v26) (V c main_v27) (V c main_v15) (V c main_arg5)
    (j 0) (j 1) (((cfg1.win 4).blk t).view.emb j) (fun k => ?_) (fun k => ?_) ?_ (fun k => ?_)
  · exact blk_a V c t _ _ hi0 rfl
  · exact blk_b V c t _ _ rfl rfl
  · exact blk_d V c t _ _ hi0 rfl
  · exact blk_w V c t _ _ rfl hi1

/-- An index of the output is in point t's block iff each coordinate is in the block's range on its axis. -/
theorem mem_blk (t : Fin cfg1.N) (i : S100000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- Every index of the output is in the block of the point its row falls in: row r is point r / 5000's. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- THE OUTPUT ARRAY after the region: `layer2` of the aggregate, the bias row, the factor column and the weights as
    the region finds them. -/
theorem final (c : Dev nD) :
    (dat1 (F := Ideal) V c).arrAt 4 cfg1.N
      = layer2 (V c main_v26) (V c main_v27) (V c main_v15) (V c main_arg5) :=
  (dat1 (F := Ideal) V c).arrAt_eq_of_cover 4
    (layer2 (V c main_v26) (V c main_v27) (V c main_v15) (V c main_arg5))
    (fun t _ => written_eq V c t) covered

end Cert.Gcn.Region1

end
-- ==== Proof.Region2.lean ====
/-
  The third dense piece, the decoder. Its grid has 20 points; point `t` owns the 10000 pairs
  `10000·t … 10000·t + 9999` of the 200000 candidate pairs. At a point the body reads the two blocks of gathered
  embedding rows (10000 × 128 each), multiplies them entry by entry, adds the 128 lanes of every row, and writes the
  10000 sums back as a column. So entry `p` of the result depends on row `p` of each embedding array and on nothing
  else, and the whole result is `Cert.Gcn.decode`: the dot product of row `p` with row `p`.

  Steps: the body's value at an index (`pay_apply`); the same with the two blocks read as rows of whole arrays
  (`point_eq`); where each window's block sits at a point (`idx_facts`, `iblk0_apply`, `iblk1_apply`); what a point
  writes back is its block of `decode` (`flushed_eq`); the 20 blocks cover the 200000 rows (`cover`); hence the array
  after the last point (`final`). No law of arithmetic beyond reading a sum index by index is used.
-/
import proofs.«122417_j88742614270706_2_alg».proof.Proof.Spec
import proofs.«122417_j88742614270706_2_alg».proof.Proof.Gen.KernelIdeal.Frame
import Idealize.ShloMosaic.Lib.Pipeline.Value
import Idealize.ShloMosaic.Lib.ValueIdx
import Idealize.ShloMosaic.PureOps.Ideal.Laws

noncomputable section

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, spelt as a constant function. -/
theorem hz : (![0, 0] : Fin 2 → Nat) = fun _ => 0 := funext fun a => by fin_cases a <;> rfl

/-- The body's value at row `r` (the column coordinate `u` is the only one there is): the casts to the same shape
    change nothing, the product is taken entry by entry, the lane sum at `r` runs over the 128 entries `(r, k)`, and the
    cast of the 10000 sums to a column reads sum `r` at `(r, u)` because both sit at row-major position `r`. -/
theorem pay_apply (x0 x1 : Vec Ideal S10000x128 .f32) (r : Fin 10000) (u : Fin 1) :
    k2_pay1 (F := Ideal) x0 x1 (ix2 r u) = ∑ k : Fin 128, x0 (ix2 r k) * x1 (ix2 r k) := by
  unfold k2_pay1
  refine (shapeCast_apply _ _ (ix2 r u) (ix1 r) ?_).trans ?_
  · rw [Shape.rowMajor_val_one, Shape.rowMajor_val_two]
    show r.val = r.val * 1 + u.val
    omega
  refine (Ideal.multiReduction_add_single _ (0x00000000#32 : BitVec 32) reduces_S10000x128_S10000 (.inl rfl) rfl (ix1 r)).trans ?_
  refine Finset.sum_congr rfl fun k _ => ?_
  have e : reduces_S10000x128_S10000.lift (ix1 r) k = ix2 r k := by
    funext a; apply Fin.ext
    match a with
    | ⟨0, _⟩ => rfl
    | ⟨1, _⟩ => rfl
  rw [e, shapeCast_self, shapeCast_self]
  rfl

/-- If the two blocks are rows `10000·T … 10000·T + 9999` of whole arrays `A` and `B` (`h0`, `h1`: entry `(r, k)` of a
    block is the array's entry at any index with coordinates `(10000·T + r, k)`), then the body's value at `j` is
    `decode A B` at any index `q` of row `10000·T + j₀`: the same 128 products, added in the same order. -/
theorem point_eq (x0 x1 : Vec Ideal S10000x128 .f32) (A B : FVec Ideal S200000x128 .f32) (T : ℕ)
    (h0 : ∀ (r : Fin 10000) (k : Fin 128) (p : S200000x128.Idx), (p 0).val = T * 10000 + r.val → (p 1).val = k.val →
      x0 (ix2 r k) = A p)
    (h1 : ∀ (r : Fin 10000) (k : Fin 128) (p : S200000x128.Idx), (p 0).val = T * 10000 + r.val → (p 1).val = k.val →
      x1 (ix2 r k) = B p)
    (j : S10000x1.Idx) (q : S200000x1.Idx) (hq : (q 0).val = T * 10000 + (j 0).val) :
    k2_pay1 (F := Ideal) x0 x1 j = decode A B q := by
  obtain ⟨r, u, rfl⟩ : ∃ (r : Fin 10000) (u : Fin 1), j = ix2 r u := ⟨j 0, j 1, eq_ix2 j⟩
  rw [pay_apply]
  unfold decode
  refine Finset.sum_congr rfl fun k _ => ?_
  exact congrArg₂ (· * ·) (h0 r k _ hq rfl) (h1 r k _ hq rfl)

/-- The three index maps, decided over the 20 points: at point `t` every window is at block `(t, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

-- the buffer contents when the decoder is entered
variable (V : (c : Dev nD) → (b : Ref sig .tc) → Buf (Elt Ideal) ((c : Thread nD τ).loc b))

/-- The first window's block at point `t`, at `(r, k)`, is the first embedding array at row `10000·t + r`, lane `k`:
    a block's element sits, on each axis, at block index × block size + its own coordinate. -/
theorem iblk0_apply (c : Dev nD) (t : Fin cfg2.N) (r : Fin 10000) (k : Fin 128) (p : S200000x128.Idx)
    (hp0 : (p 0).val = t.val * 10000 + r.val) (hp1 : (p 1).val = k.val) :
    (iblk2 (F := Ideal) V c 0 t : Vec Ideal S10000x128 .f32) (ix2 r k) = (V c main_v54 : FVec Ideal S200000x128 .f32) p := by
  obtain ⟨e0, e1, -⟩ := idx_facts t
  unfold iblk2
  rw [View.read_apply]
  show V c main_v54 _ = V c main_v54 _
  refine congrArg _ ?_
  funext a; apply Fin.ext
  match a with
  | ⟨0, _⟩ => show win2_0.index t (0 : Fin 2) * 10000 + 1 * r.val = (p 0).val; rw [e0, hp0]; omega
  | ⟨1, _⟩ => show win2_0.index t (1 : Fin 2) * 128 + 1 * k.val = (p 1).val; rw [e1, hp1]; omega

/-- The same for the second window and the second embedding array. -/
theorem iblk1_apply (c : Dev nD) (t : Fin cfg2.N) (r : Fin 10000) (k : Fin 128) (p : S200000x128.Idx)
    (hp0 : (p 0).val = t.val * 10000 + r.val) (hp1 : (p 1).val = k.val) :
    (iblk2 (F := Ideal) V c 1 t : Vec Ideal S10000x128 .f32) (ix2 r k) = (V c main_v61 : FVec Ideal S200000x128 .f32) p := by
  obtain ⟨-, -, e0, e1, -⟩ := idx_facts t
  unfold iblk2
  rw [View.read_apply]
  show V c main_v61 _ = V c main_v61 _
  refine congrArg _ ?_
  funext a; apply Fin.ext
  match a with
  | ⟨0, _⟩ => show win2_1.index t (0 : Fin 2) * 10000 + 1 * r.val = (p 0).val; rw [e0, hp0]; omega
  | ⟨1, _⟩ => show win2_1.index t (1 : Fin 2) * 128 + 1 * k.val = (p 1).val; rw [e1, hp1]; omega

/-- What point `t` writes back is block `t` of `decode` of the two embedding arrays: the body stores once, over its whole
    block, the value of `point_eq` of the two input blocks; element `j` of the output block is row `10000·t + j₀` of the
    result array. -/
theorem flushed_eq (c : Dev nD) (t : Fin cfg2.N) :
    (dat2 (F := Ideal) V c).flushed 2 t
      = ((cfg2.win 2).blk t).view.read (Elt Ideal) (decode (V c main_v54) (V c main_v61)) := by
  show (cfg2.win 2).cut (grid2.coords t) ((dat2 V c).after 2 t) = _
  rw [after2_2]
  unfold out2_2
  rw [View.canon_unit_zero hz]
  simp only [View.ld_unit_zero (S := S10000x128) hz]
  obtain ⟨-, -, -, -, e4, -⟩ := idx_facts t
  funext j
  show k2_pay1 (F := Ideal) (iblk2 V c 0 t) (iblk2 V c 1 t) j
    = decode (V c main_v54) (V c main_v61) (((cfg2.win 2).blk t).view.emb j)
  refine point_eq (iblk2 V c 0 t) (iblk2 V c 1 t) (V c main_v54) (V c main_v61) t.val
    (iblk0_apply V c t) (iblk1_apply V c t) j (((cfg2.win 2).blk t).view.emb j) ?_
  show win2_2.index t (0 : Fin 2) * 10000 + 1 * (j 0).val = t.val * 10000 + (j 0).val
  rw [e4]; omega

/-- An index of the result array is in point `t`'s block iff each coordinate is in the block's range on its axis. -/
theorem mem_blk (t : Fin cfg2.N) (i : S200000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v62).slice (win2_2.rect t)).set ↔ _
  rw [View.set_slice_whole, Rect.mem_set_unit]
  exact Iff.rfl

/-- Every row is some point's: row `p` lies in the block of point `p / 10000`, and every point writes back. -/
theorem cover (i : S200000x1.Idx) :
    ∃ t : Fin cfg2.N, (cfg2.win 2).flush t = true ∧ i ∈ ((cfg2.win 2).blk t).view.set := by
  have hi0 : (i 0).val < 200000 := (i 0).isLt
  have hi1 : (i 1).val < 1 := (i 1).isLt
  obtain ⟨t, ht⟩ : ∃ t : Fin cfg2.N, t.val = (i 0).val / 10000 :=
    ⟨⟨(i 0).val / 10000, Nat.lt_of_lt_of_eq (by omega : (i 0).val / 10000 < 20) N_2.symm⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 1 ≤ (i 1).val ∧ (i 1).val < win2_2.index t (1 : Fin 2) * 1 + 1
    rw [e5]; omega

/-- The result array after the last point is `decode` of the two embedding arrays as the decoder found them: every
    point writes its block of that one function, and the blocks cover the array. -/
theorem final (c : Dev nD) :
    (dat2 (F := Ideal) V c).arrAt 2 cfg2.N = decode (V c main_v54) (V c main_v61) :=
  (dat2 V c).arrAt_eq_of_cover 2 (decode (V c main_v54) (V c main_v61)) (fun t _ => flushed_eq V c t) cover

end Cert.Gcn.Region2

end
-- ==== Proof.RefRun.lean ====
/-
  The run of the reference program. Its @main is a straight line of 127 array operations (the two outlined functions,
  the masked choice `where` and the clip below at zero, stand inline where they are called). The operations are listed
  in order; folding the list over the launch contents gives every buffer's final contents. The result buffer then
  holds the staged term `Cert.Gcn.refOut` of the seven arguments, and the arguments are left as they were.

  Reading the fold back is pure unfolding: every operation writes one fresh buffer, so the result buffer's contents
  are the operations' functions composed along the data flow, which is `refOut` stage by stage (edge lists, degree,
  node factor, edge weights, the two convolutions with the clip between them, the pair scores).
-/
import proofs.«122417_j88742614270706_2_alg».proof.Proof.RefTerms
import Idealize.ShloMosaic.Lib.StableHlo.Run

noncomputable section

namespace Cert.Gcn.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The reference's 127 operations, in order (an outlined function's operations stand where it is called). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    binary main_arg0 main_arg3 main_v15 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v14 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    unary main_v30 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v15 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v38 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg5 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v14 main_v54 main_v55 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v6 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v6 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v6 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v14 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v55 main_v62 main_v63 (mulf : (⟨S1700000, .f32⟩ : BufTy).Contents (Elt F) → (⟨S1700000, .f32⟩ : BufTy).Contents (Elt F) → (⟨S1700000, .f32⟩ : BufTy).Contents (Elt F)),
    unary main_v63 main_v64 (broadcastInDim S1700000x1 ![0] bcast_S1700000_S1700000x1_0 : (⟨S1700000, .f32⟩ : BufTy).Contents (Elt F) → (⟨S1700000x1, .f32⟩ : BufTy).Contents (Elt F)),
    nullary main_c_13 (constantI S_ 32 0#32),
    unary main_c_13 main_v65 (broadcastInDim S1700000 ![] bcast_S_S1700000 : (⟨S_, .i32⟩ : BufTy).Contents (Elt F) → (⟨S1700000, .i32⟩ : BufTy).Contents (Elt F)),
    binary main_v3 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v67 (broadcastInDim S1700000 ![] bcast_S_S1700000 : (⟨S_, .i32⟩ : BufTy).Contents (Elt F) → (⟨S1700000, .i32⟩ : BufTy).Contents (Elt F)),
    binary main_v3 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v3 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v48 main_v70 main_v71 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v64 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v72 main_v71 main_v73 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v74 (broadcastInDim S100000x128 ![] bcast_S_S100000x128 : (⟨S_, .f32⟩ : BufTy).Contents (Elt F) → (⟨S100000x128, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    unary main_arg2 main_v80 ((extractStridedSlice S1x200000 ![0, 0] · slices_S2x200000_S1x200000_0_0) : (⟨S2x200000, .i32⟩ : BufTy).Contents (Elt F) → (⟨S1x200000, .i32⟩ : BufTy).Contents (Elt F)),
    reshape main_v80 main_v81 rfl shapeCasts_S1x200000_S200000,
    unary main_arg2 main_v82 ((extractStridedSlice S1x200000 ![1, 0] · slices_S2x200000_S1x200000_1_0) : (⟨S2x200000, .i32⟩ : BufTy).Contents (Elt F) → (⟨S1x200000, .i32⟩ : BufTy).Contents (Elt F)),
    reshape main_v82 main_v83 rfl shapeCasts_S1x200000_S200000,
    nullary main_c_16 (constantI S_ 32 0#32),
    unary main_c_16 main_v84 (broadcastInDim S200000 ![] bcast_S_S200000 : (⟨S_, .i32⟩ : BufTy).Contents (Elt F) → (⟨S200000, .i32⟩ : BufTy).Contents (Elt F)),
    binary main_v81 main_v84 main_v85 (cmpi .slt : (⟨S200000, .i32⟩ : BufTy).Contents (Elt F) → (⟨S200000, .i32⟩ : BufTy).Contents (Elt F) → (⟨S200000, .i1⟩ : BufTy).Contents (Elt F)),
    nullary main_c_17 (constantI S_ 32 100000#32),
    unary main_c_17 main_v86 (broadcastInDim S200000 ![] bcast_S_S200000 : (⟨S_, .i32⟩ : BufTy).Contents (Elt F) → (⟨S200000, .i32⟩ : BufTy).Contents (Elt F)),
    binary main_v81 main_v86 main_v87 (addi : (⟨S200000, .i32⟩ : BufTy).Contents (Elt F) → (⟨S200000, .i32⟩ : BufTy).Contents (Elt F) → (⟨S200000, .i32⟩ : BufTy).Contents (Elt F)),
    ternary main_v85 main_v87 main_v81 main_v88 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v88 main_v89 (broadcastInDim S200000x1 ![0] bcast_S200000_S200000x1_0 : (⟨S200000, .i32⟩ : BufTy).Contents (Elt F) → (⟨S200000x1, .i32⟩ : BufTy).Contents (Elt F)),
    binary main_v79 main_v89 main_v90 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_18 (constantI S_ 32 0#32),
    unary main_c_18 main_v91 (broadcastInDim S200000 ![] bcast_S_S200000 : (⟨S_, .i32⟩ : BufTy).Contents (Elt F) → (⟨S200000, .i32⟩ : BufTy).Contents (Elt F)),
    binary main_v83 main_v91 main_v92 (cmpi .slt : (⟨S200000, .i32⟩ : BufTy).Contents (Elt F) → (⟨S200000, .i32⟩ : BufTy).Contents (Elt F) → (⟨S200000, .i1⟩ : BufTy).Contents (Elt F)),
    nullary main_c_19 (constantI S_ 32 100000#32),
    unary main_c_19 main_v93 (broadcastInDim S200000 ![] bcast_S_S200000 : (⟨S_, .i32⟩ : BufTy).Contents (Elt F) → (⟨S200000, .i32⟩ : BufTy).Contents (Elt F)),
    binary main_v83 main_v93 main_v94 (addi : (⟨S200000, .i32⟩ : BufTy).Contents (Elt F) → (⟨S200000, .i32⟩ : BufTy).Contents (Elt F) → (⟨S200000, .i32⟩ : BufTy).Contents (Elt F)),
    ternary main_v92 main_v94 main_v83 main_v95 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v95 main_v96 (broadcastInDim S200000x1 ![0] bcast_S200000_S200000x1_0 : (⟨S200000, .i32⟩ : BufTy).Contents (Elt F) → (⟨S200000x1, .i32⟩ : BufTy).Contents (Elt F)),
    binary main_v79 main_v96 main_v97 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    binary main_v90 main_v97 main_v98 (mulf : (⟨S200000x128, .f32⟩ : BufTy).Contents (Elt F) → (⟨S200000x128, .f32⟩ : BufTy).Contents (Elt F) → (⟨S200000x128, .f32⟩ : BufTy).Contents (Elt F)),
    nullary main_cst_20 (constant S_ .f32 0x00000000#32),
    binary main_v98 main_cst_20 main_v99 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

omit [Cert.ReferenceIdeal.Facts] in
/-- A column of gather start indices with the spreading into a column written out: the shape in which the run
    produces it. -/
theorem wrapCol_unfold [Cert.KernelIdeal.Facts] (i : IVec Cert.KernelIdeal.S1700000 32) :
    Cert.Gcn.wrapCol i = broadcastInDim Cert.KernelIdeal.S1700000x1 ![0] Cert.KernelIdeal.Facts₀.bcast_S1700000_S1700000x1_0
      (select (cmpi .slt i (broadcastInDim Cert.KernelIdeal.S1700000 ![] Cert.KernelIdeal.Facts₀.bcast_S_S1700000 (constantI Cert.KernelIdeal.S_ 32 0#32)))
        (addi i (broadcastInDim Cert.KernelIdeal.S1700000 ![] Cert.KernelIdeal.Facts₀.bcast_S_S1700000 (constantI Cert.KernelIdeal.S_ 32 100000#32))) i) := rfl

set_option maxRecDepth 8192 in
set_option maxHeartbeats 50800000 in
omit [Cert.ReferenceIdeal.Facts] in
/-- The fold of the 127 operations over the launch contents, read at the result buffer, is `refOut` of the seven
    arguments' launch contents. -/
theorem res_eq [Cert.KernelIdeal.Facts] [Cert.ReferenceIdeal.Facts] (m : (ℓ : Loc nD τ sig) → Buf (Elt Ideal) ℓ) (c : Dev nD) :
    after (ops (F := Ideal)) (launchContents m c) (Proc.devRef .tc main_v99)
      = Cert.Gcn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  -- Every operation writes one buffer that no earlier one wrote: its contents after the fold are the operation's
  -- function of its operands' contents, and every other buffer keeps what it held. Composing along the data flow
  -- leaves a term of the seven argument buffers only.
  after_results_simp
  -- The same inside the two-piece lists of the concatenations (the edge lists: the given edges, then the self-loops).
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  -- An argument buffer's launch contents are the launch memory there.
  rw [show launchContents m c (Proc.devRef .tc main_arg0) = m ((c.tc : Thread nD τ).loc main_arg0) from rfl,
    show launchContents m c (Proc.devRef .tc main_arg1) = m ((c.tc : Thread nD τ).loc main_arg1) from rfl,
    show launchContents m c (Proc.devRef .tc main_arg2) = m ((c.tc : Thread nD τ).loc main_arg2) from rfl,
    show launchContents m c (Proc.devRef .tc main_arg3) = m ((c.tc : Thread nD τ).loc main_arg3) from rfl,
    show launchContents m c (Proc.devRef .tc main_arg4) = m ((c.tc : Thread nD τ).loc main_arg4) from rfl,
    show launchContents m c (Proc.devRef .tc main_arg5) = m ((c.tc : Thread nD τ).loc main_arg5) from rfl,
    show launchContents m c (Proc.devRef .tc main_arg6) = m ((c.tc : Thread nD τ).loc main_arg6) from rfl]
  -- The stages, innermost first. The edge lists: a 1 × E slice of `edge_index` recast to length E (the recast
  -- carries the identity transport between two equal element types), followed by the node numbers.
  rw (config := {transparency := .default}) [← Cert.Gcn.edgeRow0.eq_1 (m ((c.tc : Thread nD τ).loc main_arg1)), ← Cert.Gcn.edgeRow1.eq_1 (m ((c.tc : Thread nD τ).loc main_arg1))]
  -- The in-degree (ones added up along the destinations), and the node factor: the inverse square root of the degree
  -- where it is positive, else zero. The masked choice is an outlined function; its operands cross into it and its
  -- result crosses back by identity transports along the buffers' types, and its scalar zero passes through `id`.
  rw (config := {transparency := .default}) [← Cert.Gcn.deg.eq_1 (m ((c.tc : Thread nD τ).loc main_arg1))]
  rw (config := {transparency := .default}) [← Cert.Gcn.dis.eq_1 (m ((c.tc : Thread nD τ).loc main_arg1))]
  -- The remaining identity transports: the node factor's way out of that function, and the clip's way in and out.
  rw [show ∀ v : (⟨S100000, .f32⟩ : BufTy).Contents (Elt Ideal), (TRef.of (T := ⟨S100000, .f32⟩) main_v14).toBuf (Val := Elt Ideal) v = v from fun _ => rfl]
  rw [show ∀ v : (⟨S_, .f32⟩ : BufTy).Contents (Elt Ideal), (TRef.of (T := ⟨S_, .f32⟩) main_call1_cst).toBuf (Val := Elt Ideal) v = v from fun _ => rfl]
  rw [show ∀ v : (⟨S_, .f32⟩ : BufTy).Contents (Elt Ideal), (TRef.of (T := ⟨S_, .f32⟩) main_call1_cst).ofBuf (Val := Elt Ideal) v = v from fun _ => rfl]
  rw [show ∀ v : (⟨S100000x128, .f32⟩ : BufTy).Contents (Elt Ideal), (TRef.of (T := ⟨S100000x128, .f32⟩) main_call1_v0).toBuf (Val := Elt Ideal) v = v from fun _ => rfl]
  rw [show ∀ v : (⟨S100000x128, .f32⟩ : BufTy).Contents (Elt Ideal), (TRef.of (T := ⟨S100000x128, .f32⟩) main_call1_v0).ofBuf (Val := Elt Ideal) v = v from fun _ => rfl]
  rw [show ∀ v : (⟨S100000x128, .f32⟩ : BufTy).Contents (Elt Ideal), (TRef.of (T := ⟨S100000x128, .f32⟩) main_v46).ofBuf (Val := Elt Ideal) v = v from fun _ => rfl]
  rw [show ∀ v : (⟨S100000x128, .f32⟩ : BufTy).Contents (Elt Ideal), (TRef.of (T := ⟨S100000x128, .f32⟩) main_v47).toBuf (Val := Elt Ideal) v = v from fun _ => rfl]
  -- The two programs' records of one and the same gather or scatter have the same fields.
  rw [show (gather_S100000x128_S1700000x1_S1700000x128_1_0_n_n_0_1_1128 : GatherDims _ _ _) = Cert.KernelIdeal.gather_S100000x128_S1700000x1_S1700000x128_1_0_n_n_0_1_1128 from rfl]
  rw [show (scatter_S100000x128_S1700000x1_S1700000x128_1_0_0_1 : ScatterDims _ _ _) = Cert.KernelIdeal.scatter_S100000x128_S1700000x1_S1700000x128_1_0_0_1 from rfl]
  rw [show (gather_S100000x128_S200000x1_S200000x128_1_0_n_n_0_1_1128 : GatherDims _ _ _) = Cert.KernelIdeal.gather_S100000x128_S200000x1_S200000x128_1_0_n_n_0_1_1128 from rfl]
  -- Start-index columns (a negative index gets N added), the edge weights `dis[src] · dis[dst]` and their spreading
  -- over the 128 features.
  rw [← wrapCol_unfold (Cert.Gcn.edgeRow0 (m ((c.tc : Thread nD τ).loc main_arg1)))]
  rw [← wrapCol_unfold (Cert.Gcn.edgeRow1 (m ((c.tc : Thread nD τ).loc main_arg1)))]
  rw [← Cert.Gcn.edgeNorm.eq_1 (m ((c.tc : Thread nD τ).loc main_arg1))]
  rw [← Cert.Gcn.edgeNormRows.eq_1 (m ((c.tc : Thread nD τ).loc main_arg1))]
  -- The destination column, the zero table, the two bias rows spread over the nodes.
  rw [← Cert.Gcn.col.eq_1 (Cert.Gcn.edgeRow1 (m ((c.tc : Thread nD τ).loc main_arg1)))]
  rw [← Cert.Gcn.zeros.eq_1]
  rw [← Cert.Gcn.biasRows.eq_1 (m ((c.tc : Thread nD τ).loc main_arg4))]
  rw [← Cert.Gcn.biasRows.eq_1 (m ((c.tc : Thread nD τ).loc main_arg6))]
  -- First convolution of `x · W1`: rows at the sources, weighted, added up at the destinations, plus the bias;
  -- then the clip below at zero.
  rw [← Cert.Gcn.rowsAtSrc.eq_1 (m ((c.tc : Thread nD τ).loc main_arg1)) (Host.dotGeneral dot_S100000x256_S256x128_S100000x128_1_0_0_1_n_n none (m ((c.tc : Thread nD τ).loc main_arg0)) (m ((c.tc : Thread nD τ).loc main_arg3)))]
  rw [← Cert.Gcn.sumAtDst.eq_1 (m ((c.tc : Thread nD τ).loc main_arg1)) (mulf (Cert.Gcn.edgeNormRows (m ((c.tc : Thread nD τ).loc main_arg1))) (Cert.Gcn.rowsAtSrc (m ((c.tc : Thread nD τ).loc main_arg1)) (Host.dotGeneral dot_S100000x256_S256x128_S100000x128_1_0_0_1_n_n none (m ((c.tc : Thread nD τ).loc main_arg0)) (m ((c.tc : Thread nD τ).loc main_arg3)))))]
  rw [← Cert.Gcn.rConv.eq_1 (m ((c.tc : Thread nD τ).loc main_arg1)) (Host.dotGeneral dot_S100000x256_S256x128_S100000x128_1_0_0_1_n_n none (m ((c.tc : Thread nD τ).loc main_arg0)) (m ((c.tc : Thread nD τ).loc main_arg3))) (m ((c.tc : Thread nD τ).loc main_arg4))]
  rw [← Cert.Gcn.rHidden.eq_1 (m ((c.tc : Thread nD τ).loc main_arg0)) (m ((c.tc : Thread nD τ).loc main_arg1)) (m ((c.tc : Thread nD τ).loc main_arg3)) (m ((c.tc : Thread nD τ).loc main_arg4))]
  -- Second convolution, of `hidden · W2`: the node embeddings.
  rw [← Cert.Gcn.rowsAtSrc.eq_1 (m ((c.tc : Thread nD τ).loc main_arg1)) (Host.dotGeneral dot_S100000x128_S128x128_S100000x128_1_0_0_1_n_n none (Cert.Gcn.rHidden (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5)))]
  rw [← Cert.Gcn.sumAtDst.eq_1 (m ((c.tc : Thread nD τ).loc main_arg1)) (mulf (Cert.Gcn.edgeNormRows (m ((c.tc : Thread nD τ).loc main_arg1))) (Cert.Gcn.rowsAtSrc (m ((c.tc : Thread nD τ).loc main_arg1)) (Host.dotGeneral dot_S100000x128_S128x128_S100000x128_1_0_0_1_n_n none (Cert.Gcn.rHidden (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5)))))]
  rw [← Cert.Gcn.rConv.eq_1 (m ((c.tc : Thread nD τ).loc main_arg1)) (Host.dotGeneral dot_S100000x128_S128x128_S100000x128_1_0_0_1_n_n none (Cert.Gcn.rHidden (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5))) (m ((c.tc : Thread nD τ).loc main_arg6))]
  rw [← Cert.Gcn.rZ.eq_1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))]
  -- What is left is `refOut` unfolded once: the embedding rows at the two ends of every pair (the pair columns are
  -- recast slices of `edge_pairs`, a negative index getting N added), multiplied and summed over the features.
  rfl

set_option maxRecDepth 8192 in
set_option maxHeartbeats 50800000 in
omit [Cert.ReferenceIdeal.Facts] in
/-- On the one device, over the extended reals, from any memory with zero counters: every weakly fair execution of the
    reference terminates with the result buffer at `refOut` of the seven arguments' launch contents, and with the
    seven arguments unchanged (no operation writes an argument buffer). -/
theorem run [Cert.KernelIdeal.Facts] [Cert.ReferenceIdeal.Facts] (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99) = Cert.Gcn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v99).trans (res_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Gcn.RefRun

end
-- ==== Proof.LibEdgeIndex.lean ====
/-
  Gathers and a scatter along the first axis by ONE COLUMN of start indices `idx : [E, 1]`, read at coordinates.

  * whole rows of a table `x : [N, K]` (`x[idx]`: offset axis 1, collapsed axis 0, index vector along axis 1):
    result element `(e, k)` is `x` at row `idx[e, 0]` read signed and clamped into `[0, N − 1]`, column `k`;
  * entries of a vector `x : [N]`: result element `e` is `x` at `idx[e, 0]` read signed and clamped;
  * a scatter of rows `u : [E, K]` into a table `[N, K]` (`.at[idx].add`): update `(e, k)` lands, if anywhere, in the
    row that `idx[e, 0]` names when read signed, with no clamping;
  * a scatter-add over the extended reals, at one element: the element plus the sum of the updates over the set of
    update indices that land there (for any shapes).
-/
import Idealize.ShloMosaic.Lib.ValueIdx
import Idealize.ShloMosaic.PureOps.Ideal

noncomputable section

namespace EdgeIndex

open Idealize.ShloMosaic Idealize.ShloMosaic.ValueIdx

variable {α : Type}

/-- The dimension numbers of a gather of whole rows of `[N, K]` by a column `[E, 1]` of start indices. -/
abbrev rowDims (N E K : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(e, k)`: the table at the row `idx[e, 0]` names (signed, clamped), column `k`. -/
theorem gather_rows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowDims N E K wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N E K wf).start (ix2 e k) idx 0 + (rowDims N E K wf).batchCoord (ix2 e k) 0
      + (rowDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E K wf).startIndexMap from List.mem_singleton.mpr rfl)]
    have hsi : (rowDims N E K wf).siIdx (ix2 e k) ⟨List.idxOf (0 : Fin 2) (rowDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E K wf).start (ix2 e k) idx 1 + (rowDims N E K wf).batchCoord (ix2 e k) 1
      + (rowDims N E K wf).offCoord (ix2 e k) 1 = k.val
    rw [GatherDims.batchCoord_eq_zero _ _ _ List.not_mem_nil]
    have hs : (rowDims N E K wf).start (ix2 e k) idx 1 = 0 := by
      unfold GatherDims.start
      rw [dif_neg (show (1 : Fin 2) ∉ ([0] : List (Fin 2)) by decide)]
    have ho : (rowDims N E K wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [hs, ho]; omega

/-- The dimension numbers of a gather of entries of `[N]` by a column `[E, 1]` of start indices. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the vector at the entry `idx[e, 0]` names (signed, clamped). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of rows `[E, K]` into `[N, K]` by a column `[E, 1]` of indices. -/
abbrev rowScatter (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- WHERE AN UPDATE LANDS: if update `j = (e, k)` lands at `i`, then `idx[e, 0]`, read signed, is `i`'s row. -/
theorem scatter_row_of_some {N E K w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h : (rowScatter N E K wf).resultIdx? j idx = some i) : (idx (ix2 (j 0) 0)).toInt = ((i 0).val : Int) := by
  unfold ScatterDims.resultIdx? at h
  split at h
  · rename_i hall
    have hi := Option.some.inj h
    have h0 : ((rowScatter N E K wf).start j idx 0 + ((rowScatter N E K wf).window j 0 : Int)).toNat = (i 0).val :=
      congrArg (fun f : (⟨2, ![N, K]⟩ : Shape).Idx => (f 0).val) hi
    have hs : (rowScatter N E K wf).start j idx 0 = (idx (ix2 (j 0) 0)).toInt := by
      unfold ScatterDims.start
      rw [dif_pos (show (0 : Fin 2) ∈ (rowScatter N E K wf).scatterDimsToOperandDims from List.mem_singleton.mpr rfl)]
      have hsi : (rowScatter N E K wf).siIdx j ⟨List.idxOf (0 : Fin 2) (rowScatter N E K wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw : (rowScatter N E K wf).window j 0 = 0 := by
      unfold ScatterDims.window
      rw [dif_neg]
      intro hm
      simp [ScatterDims.sKept, Shape.kept, List.mem_filter] at hm
    have hpos := (hall 0).1
    rw [hs, hw] at h0 hpos
    simp only [Nat.cast_zero, add_zero] at h0 hpos
    omega
  · cases h

/-- The host's accumulating scatter over the extended reals is the exact scatter-add. -/
theorem scatterAdd_ideal {s si su : Shape} (d : ScatterDims s si su) {w : Nat} (x : FVec Ideal s .f32) (idx : IVec si w)
    (upd : FVec Ideal su .f32) : Host.scatterAdd d x idx upd = Ideal.hostScatterAdd d x idx upd := rfl

/-- A SCATTER-ADD AT ONE ELEMENT, over the extended reals: the operand's element plus the sum of the updates over a
    set `S` of update indices every one of which lands at that element. -/
theorem hostScatterAdd_sum {s si su : Shape} (d : ScatterDims s si su) {w : Nat} (x : s.Idx → EReal) (idx : IVec si w)
    (i : s.Idx) :
    ∃ S : Finset su.Idx, (∀ j ∈ S, d.resultIdx? j idx = some i)
      ∧ ∀ upd : su.Idx → EReal, Ideal.hostScatterAdd d x idx upd i = x i + ∑ j ∈ S, upd j := by
  refine ⟨_, ?_, fun upd => rfl⟩
  intro j hj
  exact (Finset.mem_filter.mp hj).2

end EdgeIndex

end
-- ==== Proof.EdgeReads.lean ====
/-
  The gathers and the scatter-add of the two programs' stage terms, read at coordinates.

  An edge `e` names a source row `rowOf (wrapWord (src e))` and, for the gathers of the node factor, a destination row
  `rowOf (wrapWord (dst e))`: a negative word gets N added, then the word is read signed and clamped into [0, N−1].
  The scatter-add reads `dst e` signed and drops the update unless it lands inside the table; where update (e, k) does
  land at (d, ·), the word `dst e` is `d` itself, so it is not negative, nothing is added, nothing is clamped, and the
  gathers' destination row of `e` is `d` too. That is the one fact that joins the two programs' normalisations.
  The degree is 0 plus a finite sum of ones; the node factor is its inverse square root where it is positive, else 0:
  always a finite number.
-/
import proofs.«122417_j88742614270706_2_alg».proof.Proof.RefTerms
import proofs.«122417_j88742614270706_2_alg».proof.Proof.LibEdgeIndex
import proofs.«122417_j88742614270706_2_alg».proof.Proof.LibEdgeScale
import Idealize.ShloMosaic.Lib.Pipeline.Value
import Idealize.ShloMosaic.Lib.IdealHost
import Idealize.ShloMosaic.PureOps.Ideal.Laws

noncomputable section

namespace Cert.Gcn

open Idealize.ShloMosaic Idealize.ShloMosaic.ValueIdx Cert.KernelIdeal Cert.KernelIdeal.Facts₀ Cert.KernelIdeal.Facts EdgeScale

variable [Cert.KernelIdeal.Facts] [Cert.ReferenceIdeal.Facts]

/-- The table row a start-index word names: read signed, clamped into [0, N−1]. -/
def rowOf (w : BitVec 32) : Fin 100000 := ⟨min w.toInt.toNat (100000 - 1), by omega⟩

/-- A start index as the gathers see it: a negative word gets N added. -/
def wrapWord (w : BitVec 32) : BitVec 32 := Scalar.select (IntOp.cmpi .slt w 0#32) (IntOp.addi w 100000#32) w

/-- A column of indices read at row `e`. -/
theorem colAt (i : IVec S1700000 32) (e : Fin 1700000) : col i (ix2 e 0) = i (ix1 e) := by
  unfold col
  refine broadcastInDim_apply _ _ i (ix2 e 0) (ix1 e) (fun a => ?_)
  obtain rfl : a = 0 := Subsingleton.elim _ _
  rfl

/-- A column of gather start indices read at row `e`. -/
theorem wrapColAt (i : IVec S1700000 32) (e : Fin 1700000) : wrapCol i (ix2 e 0) = wrapWord (i (ix1 e)) := by
  unfold wrapCol
  rw [colAt]
  rfl

/-- The gathered row of edge `e`: the table's row at the edge's source. -/
theorem rowsAtSrcAt (a1 : IVec S2x1600000 32) (h : FVec Ideal S100000x128 .f32) (e : Fin 1700000) (k : Fin 128) :
    rowsAtSrc a1 h (ix2 e k) = h (ix2 (rowOf (wrapWord (edgeRow0 a1 (ix1 e)))) k) := by
  unfold rowsAtSrc
  refine (EdgeIndex.gather_rows_apply (N := 100000) (E := 1700000) (K := 128) (by decide)
    gather_S100000x128_S1700000x1_S1700000x128_1_0_n_n_0_1_1128_wf h (wrapCol (edgeRow0 a1)) e k).trans ?_
  simp only [wrapColAt]
  rfl

/-- A column made from a list, read at row `e`. -/
theorem listColAt {α : Type} (x : S1700000.Idx → α) (e : Fin 1700000) :
    broadcastInDim S1700000x1 ![0] bcast_S1700000_S1700000x1_0 x (ix2 e 0) = x (ix1 e) := by
  refine broadcastInDim_apply _ _ x (ix2 e 0) (ix1 e) (fun a => ?_)
  obtain rfl : a = 0 := Subsingleton.elim _ _
  rfl

/-- A column spread over the 128 features, read at (e, k). -/
theorem colRowsAt {α : Type} (x : S1700000x1.Idx → α) (e : Fin 1700000) (k : Fin 128) :
    broadcastInDim S1700000x128 ![0, 1] Cert.ReferenceIdeal.Facts₀.bcast_S1700000x1_S1700000x128_0_1 x (ix2 e k) = x (ix2 e 0) := by
  refine broadcastInDim_apply _ _ x (ix2 e k) (ix2 e 0) (fun a => ?_)
  match a with
  | ⟨0, _⟩ => rfl
  | ⟨1, _⟩ => rfl

/-- The node factor gathered at an edge's start index. -/
theorem disAtEdge (a1 : IVec S2x1600000 32) (idx : IVec S1700000x1 32) (e : Fin 1700000) :
    Host.gather Cert.ReferenceIdeal.gather_S100000_S1700000x1_S1700000_n_0_n_n_0_1_1 (dis a1) idx (ix1 e)
      = dis a1 (ix1 (rowOf (idx (ix2 e 0)))) :=
  EdgeIndex.gather_vec_apply (N := 100000) (E := 1700000) (by decide)
    Cert.ReferenceIdeal.Facts₀.gather_S100000_S1700000x1_S1700000_n_0_n_n_0_1_1_wf (dis a1) idx e

/-- A product of two lists, entry by entry. -/
theorem mulfAt {s : Shape} (x y : FVec Ideal s .f32) (i : s.Idx) : mulf x y i = x i * y i := rfl

/-- The weight of edge `e` (spread over the features): the factor at its source times the factor at its destination. -/
theorem edgeNormRowsAt (a1 : IVec S2x1600000 32) (e : Fin 1700000) (k : Fin 128) :
    edgeNormRows a1 (ix2 e k)
      = dis a1 (ix1 (rowOf (wrapWord (edgeRow0 a1 (ix1 e))))) * dis a1 (ix1 (rowOf (wrapWord (edgeRow1 a1 (ix1 e))))) := by
  unfold edgeNormRows
  rw [colRowsAt, listColAt]
  unfold edgeNorm
  rw [mulfAt, disAtEdge, disAtEdge, wrapColAt, wrapColAt]

/-- WHERE AN UPDATE LANDS, THE GATHERS AGREE: if the scatter-add puts update `j = (e, k)` at `i`, then the destination
    row the gathers read for `e` is `i`'s row. -/
theorem dstRow_of_landing (a1 : IVec S2x1600000 32) (j : S1700000x128.Idx) (i : S100000x128.Idx)
    (h : scatter_S100000x128_S1700000x1_S1700000x128_1_0_0_1.resultIdx? j (col (edgeRow1 a1)) = some i) :
    rowOf (wrapWord (edgeRow1 a1 (ix1 (j 0)))) = i 0 := by
  have h1 := EdgeIndex.scatter_row_of_some (N := 100000) (E := 1700000) (K := 128)
    scatter_S100000x128_S1700000x1_S1700000x128_1_0_0_1_wf (col (edgeRow1 a1)) j i h
  have h2 : (edgeRow1 a1 (ix1 (j 0))).toInt = ((i 0).val : Int) :=
    (congrArg BitVec.toInt (colAt (edgeRow1 a1) (j 0))).symm.trans h1
  clear h1
  generalize edgeRow1 a1 (ix1 (j 0)) = w at h2 ⊢
  have hlt : (i 0).val < 100000 := (i 0).isLt
  have hs : w.slt 0#32 = false := by
    show decide (w.toInt < (0#32 : BitVec 32).toInt) = false
    have h0 : (0#32 : BitVec 32).toInt = 0 := by decide
    rw [h0]
    exact decide_eq_false (by omega)
  have hw : wrapWord w = w := by
    show Scalar.select (BitVec.ofBool (w.slt 0#32)) (IntOp.addi w 100000#32) w = w
    rw [hs]
    rfl
  rw [hw]
  apply Fin.ext
  show min w.toInt.toNat (100000 - 1) = (i 0).val
  omega

/-- The zero table's entries. -/
theorem zerosAt (i : S100000x128.Idx) : zeros i = (0 : EReal) := Ideal.ofBits_zero_f32

/-- The scatter-add at `i`: zero plus the sum of the messages that land at `i`. -/
theorem sumAtDst_landing (a1 : IVec S2x1600000 32) (i : S100000x128.Idx) :
    ∃ S : Finset S1700000x128.Idx,
      (∀ j ∈ S, scatter_S100000x128_S1700000x1_S1700000x128_1_0_0_1.resultIdx? j (col (edgeRow1 a1)) = some i)
      ∧ ∀ msgs : FVec Ideal S1700000x128 .f32, sumAtDst a1 msgs i = 0 + ∑ j ∈ S, msgs j := by
  obtain ⟨S, hS, hsum⟩ := EdgeIndex.hostScatterAdd_sum scatter_S100000x128_S1700000x1_S1700000x128_1_0_0_1 zeros
    (col (edgeRow1 a1)) i
  refine ⟨S, hS, fun msgs => ?_⟩
  unfold sumAtDst
  rw [EdgeIndex.scatterAdd_ideal, hsum, zerosAt]

/-- A list of one repeated word, read anywhere. -/
theorem splatAt {s : Shape} (h : S_.BroadcastsInDim s (![] : Fin 0 → Fin s.rank)) (b : BitVec 32) (i : s.Idx) :
    broadcastInDim s ![] h (constant (F := Ideal) S_ .f32 b) i = Ideal.ofBits .f32 b := rfl

/-- The degree of a node is finite: zero plus a finite sum of ones. -/
theorem deg_finite (a1 : IVec S2x1600000 32) (i : S100000.Idx) : Finite (deg a1 i) := by
  obtain ⟨S, -, hsum⟩ := EdgeIndex.hostScatterAdd_sum scatter_S100000_S1700000x1_S1700000_n_0_0_1
    (broadcastInDim S100000 ![] bcast_S_S100000 (constant (F := Ideal) S_ .f32 0x00000000#32)) (col (edgeRow1 a1)) i
  unfold deg
  rw [EdgeIndex.scatterAdd_ideal, hsum, splatAt, Ideal.ofBits_zero_f32]
  refine finite_zero.add (Finite.sum _ _ fun j _ => ?_)
  rw [splatAt, Ideal.ofBits_one_f32]
  exact finite_one

/-- Where a table of finite entries is positive its inverse square root is finite; elsewhere the choice is zero. -/
theorem invSqrt_finite {s : Shape} (g z : FVec Ideal s .f32) (hg : ∀ i, Finite (g i)) (hz : ∀ i, z i = 0) (i : s.Idx) :
    Finite (select (cmpf .ogt g z) (Host.rsqrt g) z i) := by
  obtain ⟨r, hr⟩ := (hg i).exists_coe
  show Finite (Scalar.select (Ideal.cmp .ogt (g i) (z i)) (Ideal.rsqrt (g i)) (z i))
  rw [hr, hz i]
  unfold Scalar.select
  split
  · rename_i hc
    have hc' : BitVec.ofBool (decide ((0 : EReal) < (r : EReal))) = 1#1 := hc
    have hpos : (0 : EReal) < (r : EReal) := by
      by_contra hn
      rw [decide_eq_false hn] at hc'
      exact absurd hc' (by decide)
    have hr0 : 0 < r := by exact_mod_cast hpos
    rw [Ideal.rsqrt_coe, if_neg (not_lt.mpr hr0.le), if_neg hr0.ne']
    exact finite_coe _
  · exact finite_zero

/-- The node factor is finite: the inverse square root of a positive real, or zero. -/
theorem dis_finite (a1 : IVec S2x1600000 32) (i : S100000.Idx) : Finite (dis a1 i) := by
  unfold dis
  exact invSqrt_finite (deg a1) _ (deg_finite a1) (fun j => (splatAt _ _ j).trans Ideal.ofBits_zero_f32) i

end Cert.Gcn

end
-- ==== Proof.DenseReads.lean ====
/-
  The dense and layout operations of the stage terms, read at coordinates over the extended reals.

  * a host product of a row-block matrix by a weight matrix at entry (i, c): the sum over the contracted coordinate;
  * the host sum along the 128 features, from the initial value zero;
  * the layout operations (a column as a vector, the bias vector as a row, a row or a column spread over a table, a
    vector as a column, the zero table) at an entry;
  * the three whole-array functions of the specification against these readings.
-/
import proofs.«122417_j88742614270706_2_alg».proof.Proof.RefTerms
import proofs.«122417_j88742614270706_2_alg».proof.Proof.LibTiles
import Idealize.ShloMosaic.PureOps.Ideal.Laws
import Idealize.ShloMosaic.Lib.ValueIdx
import Idealize.ShloMosaic.Lib.Pipeline.Value

set_option maxRecDepth 16384

noncomputable section

namespace Cert.Gcn

open Idealize.ShloMosaic Idealize.ShloMosaic.ValueIdx Cert.KernelIdeal Cert.KernelIdeal.Facts₀ Cert.KernelIdeal.Facts

variable [Cert.KernelIdeal.Facts] [Cert.ReferenceIdeal.Facts]

/-! ## The host products -/

/-- The host product of an m×k matrix by a k×n matrix (left operand contracted on its columns, right operand on its
    rows, no batch axes) read at entry (a, b): the sum over the contracted coordinate `c` of `A (a, c) * B (c, b)`.
    `w` is the well-formedness of the dimension numbers, which a program states. -/
theorem hostDot_rows_apply {m n k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first layer's product `x · W1` at entry (i, c). -/
theorem hostDot1_apply (a0 : FVec Ideal S100000x256 .f32) (a3 : FVec Ideal S256x128 .f32) (i : Fin 100000) (c : Fin 128) :
    Host.dotGeneral Cert.ReferenceIdeal.dot_S100000x256_S256x128_S100000x128_1_0_0_1_n_n none a0 a3 (ix2 i c)
      = ∑ k : Fin 256, a0 (ix2 i k) * a3 (ix2 k c) :=
  hostDot_rows_apply Cert.ReferenceIdeal.Facts₀.dot_S100000x256_S256x128_S100000x128_1_0_0_1_n_n_wf none a0 a3 i c

/-- The second layer's product `hidden · W2` at entry (i, c). -/
theorem hostDot2_apply (h : FVec Ideal S100000x128 .f32) (a5 : FVec Ideal S128x128 .f32) (i : Fin 100000) (c : Fin 128) :
    Host.dotGeneral Cert.ReferenceIdeal.dot_S100000x128_S128x128_S100000x128_1_0_0_1_n_n none h a5 (ix2 i c)
      = ∑ k : Fin 128, h (ix2 i k) * a5 (ix2 k c) :=
  hostDot_rows_apply Cert.ReferenceIdeal.Facts₀.dot_S100000x128_S128x128_S100000x128_1_0_0_1_n_n_wf none h a5 i c

/-! ## The host sum along the features -/

/-- The host sum of a [200000, 128] table along its second axis from the initial value zero, at pair `p`: the sum over
    the 128 features of row `p`. -/
theorem hostReduce_apply (x : FVec Ideal S200000x128 .f32) (p : Fin 200000) :
    Host.reduceAdd x (constant (F := Ideal) S_ .f32 0x00000000#32)
        Cert.ReferenceIdeal.Facts₀.reducesTo_S200000x128_S200000_d1 Cert.ReferenceIdeal.Facts₀.h_S_ (ix1 p)
      = ∑ k : Fin 128, x (ix2 p k) := by
  show Ideal.hostReduceAdd _ x (Ideal.ofBits .f32 0x00000000#32) (ix1 p) = _
  rw [Ideal.hostReduceAdd_single _ (by decide : Shape.Reduces ⟨2, ![200000, 128]⟩ [1] ⟨1, ![200000]⟩),
    Ideal.ofBits_zero_f32, zero_add]
  exact Finset.sum_congr rfl fun k _ => congrArg x (funext fun a => by
    match a with
    | ⟨0, _⟩ => rfl
    | ⟨1, _⟩ => rfl)

/-! ## The layout operations -/

/-- A [200000, 1] column read as a vector. -/
theorem castCol_apply (x : FVec Ideal S200000x1 .f32) (p : Fin 200000) :
    shapeCast S200000 x shapeCasts_S200000x1_S200000 (ix1 p) = x (ix2 p (0 : Fin 1)) := by
  refine shapeCast_apply x shapeCasts_S200000x1_S200000 (ix1 p) (ix2 p (0 : Fin 1)) ?_
  rw [Shape.rowMajor_val_two, Shape.rowMajor_val_one]
  show p.val * 1 + 0 = p.val
  omega

/-- The bias vector read as a [1, 128] row. -/
theorem castBias_apply (b : FVec Ideal S128 .f32) (k : Fin 128) :
    shapeCast S1x128 b shapeCasts_S128_S1x128 (ix2 (0 : Fin 1) k) = b (ix1 k) := by
  refine shapeCast_apply b shapeCasts_S128_S1x128 (ix2 (0 : Fin 1) k) (ix1 k) ?_
  rw [Shape.rowMajor_val_two, Shape.rowMajor_val_one]
  show k.val = 0 * 128 + k.val
  omega

/-- A bias vector spread over all nodes: entry (d, k) is the vector's entry k. -/
theorem biasRows_apply (b : FVec Ideal S128 .f32) (d : Fin 100000) (k : Fin 128) : biasRows b (ix2 d k) = b (ix1 k) := by
  unfold biasRows
  refine (broadcastInDim_apply ![0, 1] bcast_S1x128_S100000x128_0_1 _ (ix2 d k) (ix2 (0 : Fin 1) k) ?_).trans ?_
  · intro a
    match a with
    | ⟨0, _⟩ => rfl
    | ⟨1, _⟩ => rfl
  · refine broadcastInDim_apply ![1] bcast_S128_S1x128_1 b (ix2 (0 : Fin 1) k) (ix1 k) ?_
    intro a
    match a with
    | ⟨0, _⟩ => rfl

/-- A vector over the nodes as a column: entry (d, 0) is the vector's entry d. -/
theorem nodeCol_apply (x : FVec Ideal S100000 .f32) (d : Fin 100000) :
    broadcastInDim S100000x1 ![0] bcast_S100000_S100000x1_0 x (ix2 d (0 : Fin 1)) = x (ix1 d) := by
  refine broadcastInDim_apply ![0] bcast_S100000_S100000x1_0 x (ix2 d (0 : Fin 1)) (ix1 d) ?_
  intro a
  match a with
  | ⟨0, _⟩ =>
    show d.val = if (100000 : Nat) = 1 then 0 else d.val
    rw [if_neg (by omega)]

/-- A column over the nodes spread over the 128 features: entry (d, k) is the column's entry d. -/
theorem nodeRows_apply (x : FVec Ideal S100000x1 .f32) (d : Fin 100000) (k : Fin 128) :
    broadcastInDim S100000x128 ![0, 1] bcast_S100000x1_S100000x128_0_1 x (ix2 d k) = x (ix2 d (0 : Fin 1)) := by
  refine broadcastInDim_apply ![0, 1] bcast_S100000x1_S100000x128_0_1 x (ix2 d k) (ix2 d (0 : Fin 1)) ?_
  intro a
  match a with
  | ⟨0, _⟩ =>
    show d.val = if (100000 : Nat) = 1 then 0 else d.val
    rw [if_neg (by omega)]
  | ⟨1, _⟩ => rfl

/-- The node factor as a column: entry (d, 0) is the factor of node d. -/
theorem disCol_apply (a1 : IVec S2x1600000 32) (d : Fin 100000) : disCol a1 (ix2 d (0 : Fin 1)) = dis a1 (ix1 d) := by
  unfold disCol
  exact nodeCol_apply (dis a1) d

/-- The factor column spread over the 128 features: entry (d, k) is the factor of node d. -/
theorem disRows_apply (a1 : IVec S2x1600000 32) (d : Fin 100000) (k : Fin 128) :
    broadcastInDim S100000x128 ![0, 1] bcast_S100000x1_S100000x128_0_1 (disCol a1) (ix2 d k) = dis a1 (ix1 d) :=
  (nodeRows_apply (disCol a1) d k).trans (disCol_apply a1 d)

/-- An edge list as a column: entry (e, 0) is the list's entry e. -/
theorem col_apply (i : IVec S1700000 32) (e : Fin 1700000) : col i (ix2 e (0 : Fin 1)) = i (ix1 e) := by
  unfold col
  refine broadcastInDim_apply ![0] bcast_S1700000_S1700000x1_0 i (ix2 e (0 : Fin 1)) (ix1 e) ?_
  intro a
  match a with
  | ⟨0, _⟩ =>
    show e.val = if (1700000 : Nat) = 1 then 0 else e.val
    rw [if_neg (by omega)]

/-- The zero table is zero everywhere. -/
theorem zeros_apply (i : S100000x128.Idx) : zeros i = (0 : EReal) := by
  unfold zeros
  refine (broadcastInDim_apply ![] bcast_S_S100000x128 (constant (F := Ideal) S_ .f32 0x00000000#32) i ix0
    (fun a => a.elim0)).trans ?_
  rw [constant_apply]
  exact Ideal.ofBits_zero_f32

/-! ## The specification's three functions against these readings -/

/-- The first layer over the factor column: the host product, each row times its node's factor. -/
theorem layer1_eq (a0 : FVec Ideal S100000x256 .f32) (a1 : IVec S2x1600000 32) (a3 : FVec Ideal S256x128 .f32) :
    layer1 a0 a3 (disCol a1)
      = fun i => Host.dotGeneral Cert.ReferenceIdeal.dot_S100000x256_S256x128_S100000x128_1_0_0_1_n_n none a0 a3 i
          * dis a1 (ix1 (i 0)) := by
  funext i
  obtain ⟨r, q, rfl⟩ : ∃ (r : Fin 100000) (q : Fin 128), i = ix2 r q := ⟨i 0, i 1, eq_ix2 i⟩
  show (∑ k : Fin 256, a0 (ix2 r k) * a3 (ix2 k q)) * disCol a1 (ix2 r (0 : Fin 1))
      = Host.dotGeneral Cert.ReferenceIdeal.dot_S100000x256_S256x128_S100000x128_1_0_0_1_n_n none a0 a3 (ix2 r q)
          * dis a1 (ix1 r)
  rw [disCol_apply, hostDot1_apply]

/-- The second layer over the bias row and the factor column: the host product of the hidden table (factor times
    aggregate plus bias, clipped below at zero) with the weights, each row times its node's factor. -/
theorem layer2_eq (agg : FVec Ideal S100000x128 .f32) (a1 : IVec S2x1600000 32) (a4 : FVec Ideal S128 .f32)
    (a5 : FVec Ideal S128x128 .f32) :
    layer2 agg (shapeCast S1x128 a4 shapeCasts_S128_S1x128) (disCol a1) a5
      = fun i => Host.dotGeneral Cert.ReferenceIdeal.dot_S100000x128_S128x128_S100000x128_1_0_0_1_n_n none
            (fun j => max (dis a1 (ix1 (j 0)) * agg j + a4 (ix1 (j 1))) 0) a5 i
          * dis a1 (ix1 (i 0)) := by
  funext i
  obtain ⟨r, q, rfl⟩ : ∃ (r : Fin 100000) (q : Fin 128), i = ix2 r q := ⟨i 0, i 1, eq_ix2 i⟩
  show (∑ k : Fin 128, max (disCol a1 (ix2 r (0 : Fin 1)) * agg (ix2 r k)
        + shapeCast S1x128 a4 shapeCasts_S128_S1x128 (ix2 (0 : Fin 1) k)) 0 * a5 (ix2 k q)) * disCol a1 (ix2 r (0 : Fin 1))
      = Host.dotGeneral Cert.ReferenceIdeal.dot_S100000x128_S128x128_S100000x128_1_0_0_1_n_n none
            (fun j => max (dis a1 (ix1 (j 0)) * agg j + a4 (ix1 (j 1))) 0) a5 (ix2 r q)
          * dis a1 (ix1 r)
  rw [disCol_apply, hostDot2_apply]
  simp only [castBias_apply]

/-- The scores as a vector: the host sum along the features of the product of the two gathered tables. -/
theorem out_eq (u v : FVec Ideal S200000x128 .f32) :
    shapeCast S200000 (decode u v) shapeCasts_S200000x1_S200000
      = Host.reduceAdd (mulf u v) (constant (F := Ideal) S_ .f32 0x00000000#32)
          Cert.ReferenceIdeal.Facts₀.reducesTo_S200000x128_S200000_d1 Cert.ReferenceIdeal.Facts₀.h_S_ := by
  funext j
  obtain ⟨p, rfl⟩ : ∃ p : Fin 200000, j = ix1 p := ⟨j 0, eq_ix1 j⟩
  rw [castCol_apply, hostReduce_apply]
  rfl

end Cert.Gcn

end
-- ==== Proof.Conv.lean ====
/-
  The two programs' convolutions are one function, and so are their results.

  `kConv h b` is the kernel program's arrangement: every row of `h` is scaled by its node's factor, the scaled rows are
  gathered at the edges' sources and added up at their destinations, the sum at node `d` is scaled by `dis d`, and the bias
  is added. `rConv h b` is the reference's: each message `h[src e]` is weighed by `dis[src e] · dis[dst e]` before it is
  added up at `dst e`, and the bias is added. Every message that lands at `d` has `dis[dst e] = dis d`
  (`dstRow_of_landing`), all entries are finite, so `dis d` comes out of the sum (`EdgeScale.scale_sum`).
  With `h = x·W1` this identifies the hidden layers, with `h = hidden·W2` the embeddings, and the scores are the same
  dot products of the same gathered rows.
-/
import proofs.«122417_j88742614270706_2_alg».proof.Proof.EdgeReads
import proofs.«122417_j88742614270706_2_alg».proof.Proof.DenseReads

noncomputable section

namespace Cert.Gcn

open Idealize.ShloMosaic Idealize.ShloMosaic.ValueIdx Cert.KernelIdeal Cert.KernelIdeal.Facts₀ Cert.KernelIdeal.Facts EdgeScale

variable [Cert.KernelIdeal.Facts] [Cert.ReferenceIdeal.Facts]

attribute [local irreducible] dis deg

/-- The source row of edge `e`. -/
def srcRow (a1 : IVec S2x1600000 32) (e : Fin 1700000) : Fin 100000 := rowOf (wrapWord (edgeRow0 a1 (ix1 e)))
/-- The destination row of edge `e` as the gathers of the node factor read it. -/
def dstRow (a1 : IVec S2x1600000 32) (e : Fin 1700000) : Fin 100000 := rowOf (wrapWord (edgeRow1 a1 (ix1 e)))

/-- A sum of two tables, entry by entry. -/
theorem addfAt {s : Shape} (x y : FVec Ideal s .f32) (i : s.Idx) : addf x y i = x i + y i := rfl
/-- The larger of two tables, entry by entry. -/
theorem maximumfAt {s : Shape} (x y : FVec Ideal s .f32) (i : s.Idx) : maximumf x y i = max (x i) (y i) := rfl

/-- The kernel program's convolution of a table `h` (rows scaled before gathering, the sum scaled after). -/
def kConv (a1 : IVec S2x1600000 32) (h : FVec Ideal S100000x128 .f32) (b : FVec Ideal S128 .f32) : FVec Ideal S100000x128 .f32 :=
  addf (mulf (broadcastInDim S100000x128 ![0, 1] bcast_S100000x1_S100000x128_0_1 (disCol a1))
    (sumAtDst a1 (rowsAtSrc a1 (fun i => h i * dis a1 (ix1 (i 0)))))) (biasRows b)

/-- A scaled row gathered at an edge. -/
theorem scaledMsgAt (a1 : IVec S2x1600000 32) (h : FVec Ideal S100000x128 .f32) (j : S1700000x128.Idx) :
    rowsAtSrc a1 (fun i => h i * dis a1 (ix1 (i 0))) j
      = h (ix2 (srcRow a1 (j 0)) (j 1)) * dis a1 (ix1 (srcRow a1 (j 0))) := by
  obtain ⟨e, q, rfl⟩ : ∃ (e : Fin 1700000) (q : Fin 128), j = ix2 e q := ⟨j 0, j 1, eq_ix2 j⟩
  exact rowsAtSrcAt a1 _ e q

/-- A weighed message at an edge. -/
theorem weighedMsgAt (a1 : IVec S2x1600000 32) (h : FVec Ideal S100000x128 .f32) (j : S1700000x128.Idx) :
    mulf (edgeNormRows a1) (rowsAtSrc a1 h) j
      = (dis a1 (ix1 (srcRow a1 (j 0))) * dis a1 (ix1 (dstRow a1 (j 0)))) * h (ix2 (srcRow a1 (j 0)) (j 1)) := by
  obtain ⟨e, q, rfl⟩ : ∃ (e : Fin 1700000) (q : Fin 128), j = ix2 e q := ⟨j 0, j 1, eq_ix2 j⟩
  rw [mulfAt, edgeNormRowsAt, rowsAtSrcAt]
  rfl

/-- THE TWO CONVOLUTIONS AGREE on a table of finite entries. -/
theorem conv_eq (a1 : IVec S2x1600000 32) (h : FVec Ideal S100000x128 .f32) (b : FVec Ideal S128 .f32)
    (hh : ∀ i, Finite (h i)) : kConv a1 h b = rConv a1 h b := by
  funext i
  obtain ⟨d, k, rfl⟩ : ∃ (d : Fin 100000) (k : Fin 128), i = ix2 d k := ⟨i 0, i 1, eq_ix2 i⟩
  obtain ⟨S, hS, hsum⟩ := sumAtDst_landing a1 (ix2 d k)
  unfold kConv rConv
  rw [addfAt, addfAt, mulfAt, disRows_apply, hsum, hsum]
  simp only [scaledMsgAt, weighedMsgAt]
  exact scale_sum S (dis a1 (ix1 d)) (biasRows b (ix2 d k)) (fun j => h (ix2 (srcRow a1 (j 0)) (j 1)))
    (fun j => dis a1 (ix1 (srcRow a1 (j 0)))) (fun j => dis a1 (ix1 (dstRow a1 (j 0))))
    (dis_finite a1 _) (fun j => hh _) (fun j => dis_finite a1 _)
    (fun j hj => congrArg (fun r => dis a1 (ix1 r)) (dstRow_of_landing a1 j (ix2 d k) (hS j hj)))

/-- The reference's convolution of a finite table with a finite bias is finite. -/
theorem rConv_finite (a1 : IVec S2x1600000 32) (h : FVec Ideal S100000x128 .f32) (b : FVec Ideal S128 .f32)
    (hh : ∀ i, Finite (h i)) (hb : ∀ i, Finite (b i)) (i : S100000x128.Idx) : Finite (rConv a1 h b i) := by
  obtain ⟨d, k, rfl⟩ : ∃ (d : Fin 100000) (k : Fin 128), i = ix2 d k := ⟨i 0, i 1, eq_ix2 i⟩
  obtain ⟨S, hS, hsum⟩ := sumAtDst_landing a1 (ix2 d k)
  unfold rConv
  rw [addfAt, hsum, biasRows_apply]
  refine (finite_zero.add (Finite.sum _ _ fun j _ => ?_)).add (hb _)
  rw [weighedMsgAt]
  exact ((dis_finite a1 _).mul (dis_finite a1 _)).mul (hh _)

/-- The product `x · W1` of finite tables is finite. -/
theorem dot1_finite (a0 : FVec Ideal S100000x256 .f32) (a3 : FVec Ideal S256x128 .f32) (h0 : ∀ i, Finite (a0 i)) (h3 : ∀ i, Finite (a3 i))
    (i : S100000x128.Idx) :
    Finite (Host.dotGeneral Cert.ReferenceIdeal.dot_S100000x256_S256x128_S100000x128_1_0_0_1_n_n none a0 a3 i) := by
  obtain ⟨d, k, rfl⟩ : ∃ (d : Fin 100000) (k : Fin 128), i = ix2 d k := ⟨i 0, i 1, eq_ix2 i⟩
  rw [hostDot1_apply]
  exact Finite.sum _ _ fun q _ => (h0 _).mul (h3 _)

/-- The product `hidden · W2` of finite tables is finite. -/
theorem dot2_finite (g : FVec Ideal S100000x128 .f32) (a5 : FVec Ideal S128x128 .f32) (hg : ∀ i, Finite (g i)) (h5 : ∀ i, Finite (a5 i))
    (i : S100000x128.Idx) :
    Finite (Host.dotGeneral Cert.ReferenceIdeal.dot_S100000x128_S128x128_S100000x128_1_0_0_1_n_n none g a5 i) := by
  obtain ⟨d, k, rfl⟩ : ∃ (d : Fin 100000) (k : Fin 128), i = ix2 d k := ⟨i 0, i 1, eq_ix2 i⟩
  rw [hostDot2_apply]
  exact Finite.sum _ _ fun q _ => (hg _).mul (h5 _)

/-- The reference's hidden layer is finite. -/
theorem rHidden_finite (a0 : FVec Ideal S100000x256 .f32) (a1 : IVec S2x1600000 32) (a3 : FVec Ideal S256x128 .f32) (a4 : FVec Ideal S128 .f32)
    (h0 : ∀ i, Finite (a0 i)) (h3 : ∀ i, Finite (a3 i)) (h4 : ∀ i, Finite (a4 i)) (i : S100000x128.Idx) :
    Finite (rHidden a0 a1 a3 a4 i) := by
  unfold rHidden
  rw [maximumfAt, zeros_apply]
  exact (rConv_finite a1 _ a4 (dot1_finite a0 a3 h0 h3) h4 i).max finite_zero

/-- THE HIDDEN LAYERS AGREE: the kernel program's `max (dis · agg0 + b1) 0` is the reference's hidden layer. -/
theorem hidden_eq (a0 : FVec Ideal S100000x256 .f32) (a1 : IVec S2x1600000 32) (a3 : FVec Ideal S256x128 .f32) (a4 : FVec Ideal S128 .f32)
    (h0 : ∀ i, Finite (a0 i)) (h3 : ∀ i, Finite (a3 i)) :
    (fun j : S100000x128.Idx => max (dis a1 (ix1 (j 0)) * kAgg0 a0 a1 a3 j + a4 (ix1 (j 1))) 0) = rHidden a0 a1 a3 a4 := by
  funext j
  obtain ⟨d, k, rfl⟩ : ∃ (d : Fin 100000) (k : Fin 128), j = ix2 d k := ⟨j 0, j 1, eq_ix2 j⟩
  have hc := congrFun (conv_eq a1 (Host.dotGeneral Cert.ReferenceIdeal.dot_S100000x256_S256x128_S100000x128_1_0_0_1_n_n none a0 a3) a4
    (dot1_finite a0 a3 h0 h3)) (ix2 d k)
  unfold rHidden
  rw [maximumfAt, zeros_apply, ← hc]
  unfold kConv kAgg0
  rw [addfAt, mulfAt, disRows_apply, biasRows_apply, layer1_eq]

/-- THE EMBEDDINGS AGREE. -/
theorem kZ_eq_rZ (a0 : FVec Ideal S100000x256 .f32) (a1 : IVec S2x1600000 32) (a3 : FVec Ideal S256x128 .f32) (a4 : FVec Ideal S128 .f32)
    (a5 : FVec Ideal S128x128 .f32) (a6 : FVec Ideal S128 .f32)
    (h0 : ∀ i, Finite (a0 i)) (h3 : ∀ i, Finite (a3 i)) (h4 : ∀ i, Finite (a4 i)) (h5 : ∀ i, Finite (a5 i)) :
    kZ a0 a1 a3 a4 a5 a6 = rZ a0 a1 a3 a4 a5 a6 := by
  unfold kZ rZ kAgg1
  rw [layer2_eq, hidden_eq a0 a1 a3 a4 h0 h3]
  exact conv_eq a1 _ a6 (dot2_finite _ a5 (rHidden_finite a0 a1 a3 a4 h0 h3 h4) h5)

/-- THE RESULTS AGREE: for finite float arguments the kernel program's scores are the reference's. -/
theorem bridge (a0 : FVec Ideal S100000x256 .f32) (a1 : IVec S2x1600000 32) (a2 : IVec S2x200000 32) (a3 : FVec Ideal S256x128 .f32)
    (a4 : FVec Ideal S128 .f32) (a5 : FVec Ideal S128x128 .f32) (a6 : FVec Ideal S128 .f32)
    (h0 : ∀ i, Finite (a0 i)) (h3 : ∀ i, Finite (a3 i)) (h4 : ∀ i, Finite (a4 i)) (h5 : ∀ i, Finite (a5 i))
    (_h6 : ∀ i, Finite (a6 i)) :
    kernelOut a0 a1 a2 a3 a4 a5 a6 = refOut a0 a1 a2 a3 a4 a5 a6 := by
  unfold kernelOut refOut
  rw [kZ_eq_rZ a0 a1 a3 a4 a5 a6 h0 h3 h4 h5]
  exact out_eq _ _

end Cert.Gcn

end
-- ==== Proof.lean ====
/-
  A two-layer graph convolution with a dot-product decoder, three dense kernels among host gathers and scatter-adds,
  against its plain reference: the five claims.

  The kernel program pulls the destination's factor `dis d = deg d ^ (-1/2)` out of each node's sum of messages
  (`(x·W1)·dis` gathered at the sources, added up at the destinations, then `dis ·` the sum), where the reference
  weighs every message by `dis[src]·dis[dst]` before adding. Over the extended reals the two agree because every
  message landing at `d` carries the same finite factor `dis d` and all entries are finite under the precondition
  (Proof/Conv.lean on Proof/LibEdgeScale.lean); the gathers' clamped start index and the scatter's unclamped one name
  the same row wherever an update lands (Proof/EdgeReads.lean on Proof/LibEdgeIndex.lean).

  The parts: each kernel's whole output array as one function (Proof/Region0.lean, Region1.lean, Region2.lean over
  Proof/Spec.lean); the kernel program's run with its result buffer named (Proof/KernelRun.lean) and that buffer's
  contents as a term of the arguments (Proof/KernelValue.lean over Proof/Terms.lean); the reference's run with its result
  as a term of the arguments (Proof/RefRun.lean over Proof/RefTerms.lean); every float argument finite under the
  precondition (Proof/FiniteArgs.lean); the two terms equal (Proof/Conv.lean); the five claims put together
  (Proof/Assembly.lean). The idealization rewrote nothing, so that claim is `True`.
-/
import proofs.«122417_j88742614270706_2_alg».proof.Defs
import proofs.«122417_j88742614270706_2_alg».proof.Proof.Assembly
import proofs.«122417_j88742614270706_2_alg».proof.Proof.KernelValue
import proofs.«122417_j88742614270706_2_alg».proof.Proof.Region0
import proofs.«122417_j88742614270706_2_alg».proof.Proof.Region1
import proofs.«122417_j88742614270706_2_alg».proof.Proof.Region2
import proofs.«122417_j88742614270706_2_alg».proof.Proof.RefRun
import proofs.«122417_j88742614270706_2_alg».proof.Proof.Conv

noncomputable section

namespace Cert.Proof

/-- The kernel program's result buffer ends at `kernelOut` of the argument arrays, the reference's at `refOut` of them,
    and for finite float arguments the two are equal: with the frames, the five claims. -/
theorem claim : Cert.Claim :=
  Cert.Gcn.Assembly.claim
    (fun m ρ c => Cert.Gcn.KernelValue.result Cert.Gcn.Region0.final Cert.Gcn.Region1.final Cert.Gcn.Region2.final m ρ c)
    (fun m' ρ' => Cert.Gcn.RefRun.run m' ρ')
    (fun a0 a1 a2 a3 a4 a5 a6 h0 h3 h4 h5 h6 => Cert.Gcn.bridge a0 a1 a2 a3 a4 a5 a6 h0 h3 h4 h5 h6)

end Cert.Proof

end
